-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024x50257 : Shape := ⟨3, ![1, 1024, 50257]⟩
abbrev S1x1024x1024 : Shape := ⟨3, ![1, 1024, 1024]⟩
abbrev S768x50257 : Shape := ⟨2, ![768, 50257]⟩
abbrev S768 : Shape := ⟨1, ![768]⟩
abbrev S768x1024 : Shape := ⟨2, ![768, 1024]⟩
abbrev S_ : Shape := ⟨0, ![]⟩

class Facts : Prop where
  bcast_S_S1x1024x50257 : S_.BroadcastsInDim S1x1024x50257 (![] : Fin 0 → Fin S1x1024x50257.rank)
  reducesTo_S1x1024x50257_S_d0_1_2 : S1x1024x50257.ReducesTo [0, 1, 2] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S768x50257 : S_.BroadcastsInDim S768x50257 (![] : Fin 0 → Fin S768x50257.rank)
  reducesTo_S768x50257_S_d0_1 : S768x50257.ReducesTo [0, 1] S_
  bcast_S_S768 : S_.BroadcastsInDim S768 (![] : Fin 0 → Fin S768.rank)
  reducesTo_S768_S_d0 : S768.ReducesTo [0] S_
  bcast_S_S768x1024 : S_.BroadcastsInDim S768x1024 (![] : Fin 0 → Fin S768x1024.rank)
  reducesTo_S768x1024_S_d0_1 : S768x1024.ReducesTo [0, 1] S_

variable [Facts]

def fn_part1 {F : FTy → Type} [FloatOps F] (main_arg4 : FVec F S768x1024 .f32) (main_arg5 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x1024 .f32 := Host.absf main_arg4
  let main_cst_6 : FVec F S_ .f32 := constant S_ .f32 0x7F800000#32
  let main_v20 : FVec F S768x1024 .f32 := broadcastInDim S768x1024 ![] bcast_S_S768x1024 main_cst_6
  let main_v21 : IVec S768x1024 1 := cmpf .olt main_v19 main_v20
  let main_c_7 : IVec S_ 1 := constantI S_ 1 1#1
  let main_v22 : IVec S_ 1 := (fun x v => Host.reduce IntOp.andi x v reducesTo_S768x1024_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S1x1024x50257 .f32) (main_arg1 : FVec F S1x1024x1024 .f32) (main_arg2 : FVec F S768x50257 .f32) (main_arg3 : FVec F S768 .f32) (main_arg4 : FVec F S768x1024 .f32) (main_arg5 : FVec F S768 .f32) : IVec S_ 1 :=
  let main_v0 : FVec F S1x1024x50257 .f32 := Host.absf main_arg0
  let main_cst : FVec F S_ .f32 := constant S_ .f32 0x7F800000#32
  let main_v1 : FVec F S1x1024x50257 .f32 := broadcastInDim S1x1024x50257 ![] bcast_S_S1x1024x50257 main_cst
  let main_v2 : IVec S1x1024x50257 1 := cmpf .olt main_v0 main_v1
  let main_c : IVec S_ 1 := constantI S_ 1 1#1
  let main_v3 : IVec S_ 1 := (fun x v => Host.reduce IntOp.andi x v reducesTo_S1x1024x50257_S_d0_1_2 h_S_) main_v2 main_c
  let main_v4 : FVec F S1x1024x1024 .f32 := Host.absf main_arg1
  let main_cst_0 : FVec F S_ .f32 := constant S_ .f32 0x7F800000#32
  let main_v5 : FVec F S1x1024x1024 .f32 := broadcastInDim S1x1024x1024 ![] bcast_S_S1x1024x1024 main_cst_0
  let main_v6 : IVec S1x1024x1024 1 := cmpf .olt main_v4 main_v5
  let main_c_1 : IVec S_ 1 := constantI S_ 1 1#1
  let main_v7 : IVec S_ 1 := (fun x v => Host.reduce IntOp.andi x v reducesTo_S1x1024x1024_S_d0_1_2 h_S_) main_v6 main_c_1
  let main_v8 : IVec S_ 1 := andi main_v3 main_v7
  let main_v9 : FVec F S768x50257 .f32 := Host.absf main_arg2
  let main_cst_2 : FVec F S_ .f32 := constant S_ .f32 0x7F800000#32
  let main_v10 : FVec F S768x50257 .f32 := broadcastInDim S768x50257 ![] bcast_S_S768x50257 main_cst_2
  let main_v11 : IVec S768x50257 1 := cmpf .olt main_v9 main_v10
  let main_c_3 : IVec S_ 1 := constantI S_ 1 1#1
  let main_v12 : IVec S_ 1 := (fun x v => Host.reduce IntOp.andi x v reducesTo_S768x50257_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_v13 main_v16
-- ==== Kernel.lean ====
abbrev S1x1024x50257 : Shape := ⟨3, ![1, 1024, 50257]⟩
abbrev S1x1024x1024 : Shape := ⟨3, ![1, 1024, 1024]⟩
abbrev S768x50257 : Shape := ⟨2, ![768, 50257]⟩
abbrev S768 : Shape := ⟨1, ![768]⟩
abbrev S768x1024 : Shape := ⟨2, ![768, 1024]⟩
abbrev S50257x1x1024 : Shape := ⟨3, ![50257, 1, 1024]⟩
abbrev S50257x8x128 : Shape := ⟨3, ![50257, 8, 128]⟩
abbrev S50257x768 : Shape := ⟨2, ![50257, 768]⟩
abbrev S1024x1024 : Shape := ⟨2, ![1024, 1024]⟩
abbrev S1x768 : Shape := ⟨2, ![1, 768]⟩
abbrev S81x8x128 : Shape := ⟨3, ![81, 8, 128]⟩
abbrev S8x81x128 : Shape := ⟨3, ![8, 81, 128]⟩
abbrev S81x768 : Shape := ⟨2, ![81, 768]⟩
abbrev S1024x768 : Shape := ⟨2, ![1024, 768]⟩
abbrev S256x8x128 : Shape := ⟨3, ![256, 8, 128]⟩
abbrev S256x768 : Shape := ⟨2, ![256, 768]⟩
abbrev S128x768 : Shape := ⟨2, ![128, 768]⟩
abbrev S1x81x128 : Shape := ⟨3, ![1, 81, 128]⟩
abbrev S81x128 : Shape := ⟨2, ![81, 128]⟩
abbrev S256x1x128 : Shape := ⟨3, ![256, 1, 128]⟩
abbrev S256x128 : Shape := ⟨2, ![256, 128]⟩
abbrev S1x1024x768 : Shape := ⟨3, ![1, 1024, 768]⟩

abbrev nBuf : Space → Nat
  | .hbm => 17
  | .vmem => 10
  | .smem => 0
  | _ => 0

abbrev bufTy : (tb : Table) → Fin (tcTables nBuf tb) → BufTy
  | .hbm, ⟨0, _⟩ => ⟨S1x1024x50257, .f32⟩
  | .hbm, ⟨1, _⟩ => ⟨S1x1024x1024, .f32⟩
  | .hbm, ⟨2, _⟩ => ⟨S768x50257, .f32⟩
  | .hbm, ⟨3, _⟩ => ⟨S768, .f32⟩
  | .hbm, ⟨4, _⟩ => ⟨S768x1024, .f32⟩
  | .hbm, ⟨5, _⟩ => ⟨S768, .f32⟩
  | .hbm, ⟨6, _⟩ => ⟨S50257x1x1024, .f32⟩
  | .hbm, ⟨7, _⟩ => ⟨S50257x8x128, .f32⟩
  | .hbm, ⟨8, _⟩ => ⟨S50257x768, .f32⟩
  | .hbm, ⟨9, _⟩ => ⟨S1024x1024, .f32⟩
  | .hbm, ⟨10, _⟩ => ⟨S768, .f32⟩
  | .hbm, ⟨11, _⟩ => ⟨S1x768, .f32⟩
  | .hbm, ⟨12, _⟩ => ⟨S81x8x128, .f32⟩
  | .hbm, ⟨13, _⟩ => ⟨S8x81x128, .f32⟩
  | .hbm, ⟨14, _⟩ => ⟨S81x768, .f32⟩
  | .hbm, ⟨15, _⟩ => ⟨S1024x768, .f32⟩
  | .hbm, ⟨16, _⟩ => ⟨S1x1024x768, .f32⟩
  | .local _ .vmem, ⟨0, _⟩ => ⟨S256x8x128, .f32⟩
  | .local _ .vmem, ⟨1, _⟩ => ⟨S256x8x128, .f32⟩
  | .local _ .vmem, ⟨2, _⟩ => ⟨S1024x1024, .f32⟩
  | .local _ .vmem, ⟨3, _⟩ => ⟨S256x768, .f32⟩
  | .local _ .vmem, ⟨4, _⟩ => ⟨S256x768, .f32⟩
  | .local _ .vmem, ⟨5, _⟩ => ⟨S768x1024, .f32⟩
  | .local _ .vmem, ⟨6, _⟩ => ⟨S1x768, .f32⟩
  | .local _ .vmem, ⟨7, _⟩ => ⟨S8x81x128, .f32⟩
  | .local _ .vmem, ⟨8, _⟩ => ⟨S81x768, .f32⟩
  | .local _ .vmem, ⟨9, _⟩ => ⟨S1024x768, .f32⟩
  | _, _ => ⟨S1x1024x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![196], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x81x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S81x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  transposes_S1x1024x50257_S50257x1x1024_2_0_1 : S1x1024x50257.Transposes [2, 0, 1] S50257x1x1024
  shapeCasts_S50257x1x1024_S50257x8x128 : S50257x1x1024.ShapeCasts S50257x8x128
  transposes_S768x50257_S50257x768_1_0 : S768x50257.Transposes [1, 0] S50257x768
  shapeCasts_S1x1024x1024_S1024x1024 : S1x1024x1024.ShapeCasts S1024x1024
  shapeCasts_S768_S1x768 : S768.ShapeCasts S1x768
  slices_S50257x8x128_S81x8x128_50176_0_0 : S50257x8x128.Slices ![50176, 0, 0] S81x8x128
  transposes_S81x8x128_S8x81x128_1_0_2 : S81x8x128.Transposes [1, 0, 2] S8x81x128
  slices_S50257x768_S81x768_50176_0 : S50257x768.Slices ![50176, 0] S81x768
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S768x1024_S768x1024_0_0 : ∀ a, (![0, 0] : Fin 2 → Nat) a + S768x1024.size a ≤ S768x1024.size a
  h_S768x1024 : 0 < S768x1024.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  inb_S1024x768_S1024x768_0_0 : ∀ a, (![0, 0] : Fin 2 → Nat) a + S1024x768.size a ≤ S1024x768.size a
  h_S1024x768 : 0 < S1024x768.numel
  inb_S81x768_S81x768_0_0 : ∀ a, (![0, 0] : Fin 2 → Nat) a + S81x768.size a ≤ S81x768.size a
  h_S81x768 : 0 < S81x768.numel
  shapeCasts_S81x768_S81x768 : S81x768.ShapeCasts S81x768
  inb_S1024x768_S128x768_0_0 : ∀ a, (![0, 0] : Fin 2 → Nat) a + S128x768.size a ≤ S1024x768.size a
  h_S128x768 : 0 < S128x768.numel
  shapeCasts_S128x768_S128x768 : S128x768.ShapeCasts S128x768
  inb_S8x81x128_S1x81x128_0_0_0 : ∀ a, (![0, 0, 0] : Fin 3 → Nat) a + S1x81x128.size a ≤ S8x81x128.size a
  h_S1x81x128 : 0 < S1x81x128.numel
  shapeCasts_S1x81x128_S81x128 : S1x81x128.ShapeCasts S81x128
  inb_S1024x768_S128x768_128_0 : ∀ a, (![128, 0] : Fin 2 → Nat) a + S128x768.size a ≤ S1024x768.size a
  inb_S8x81x128_S1x81x128_1_0_0 : ∀ a, (![1, 0, 0] : Fin 3 → Nat) a + S1x81x128.size a ≤ S8x81x128.size a
  inb_S1024x768_S128x768_256_0 : ∀ a, (![256, 0] : Fin 2 → Nat) a + S128x768.size a ≤ S1024x768.size a
  inb_S8x81x128_S1x81x128_2_0_0 : ∀ a, (![2, 0, 0] : Fin 3 → Nat) a + S1x81x128.size a ≤ S8x81x128.size a
  inb_S1024x768_S128x768_384_0 : ∀ a, (![384, 0] : Fin 2 → Nat) a + S128x768.size a ≤ S1024x768.size a
  inb_S8x81x128_S1x81x128_3_0_0 : ∀ a, (![3, 0, 0] : Fin 3 → Nat) a + S1x81x128.size a ≤ S8x81x128.size a
  inb_S1024x768_S128x768_512_0 : ∀ a, (![512, 0] : Fin 2 → Nat) a + S128x768.size a ≤ S1024x768.size a
  inb_S8x81x128_S1x81x128_4_0_0 : ∀ a, (![4, 0, 0] : Fin 3 → Nat) a + S1x81x128.size a ≤ S8x81x128.size a
  inb_S1024x768_S128x768_640_0 : ∀ a, (![640, 0] : Fin 2 → Nat) a + S128x768.size a ≤ S1024x768.size a
  inb_S8x81x128_S1x81x128_5_0_0 : ∀ a, (![5, 0, 0] : Fin 3 → Nat) a + S1x81x128.size a ≤ S8x81x128.size a
  inb_S1024x768_S128x768_768_0 : ∀ a, (![768, 0] : Fin 2 → Nat) a + S128x768.size a ≤ S1024x768.size a
  inb_S8x81x128_S1x81x128_6_0_0 : ∀ a, (![6, 0, 0] : Fin 3 → Nat) a + S1x81x128.size a ≤ S8x81x128.size a
  inb_S1024x768_S128x768_896_0 : ∀ a, (![896, 0] : Fin 2 → Nat) a + S128x768.size a ≤ S1024x768.size a
  inb_S8x81x128_S1x81x128_7_0_0 : ∀ a, (![7, 0, 0] : Fin 3 → Nat) a + S1x81x128.size a ≤ S8x81x128.size a
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S256x8x128_S256x1x128_0_0_0 : ∀ a, (![0, 0, 0] : Fin 3 → Nat) a + S256x1x128.size a ≤ S256x8x128.size a
  h_S256x1x128 : 0 < S256x1x128.numel
  shapeCasts_S256x1x128_S256x128 : S256x1x128.ShapeCasts S256x128
  inb_S256x8x128_S256x1x128_0_1_0 : ∀ a, (![0, 1, 0] : Fin 3 → Nat) a + S256x1x128.size a ≤ S256x8x128.size a
  inb_S256x8x128_S256x1x128_0_2_0 : ∀ a, (![0, 2, 0] : Fin 3 → Nat) a + S256x1x128.size a ≤ S256x8x128.size a
  inb_S256x8x128_S256x1x128_0_3_0 : ∀ a, (![0, 3, 0] : Fin 3 → Nat) a + S256x1x128.size a ≤ S256x8x128.size a
  inb_S256x8x128_S256x1x128_0_4_0 : ∀ a, (![0, 4, 0] : Fin 3 → Nat) a + S256x1x128.size a ≤ S256x8x128.size a
  inb_S256x8x128_S256x1x128_0_5_0 : ∀ a, (![0, 5, 0] : Fin 3 → Nat) a + S256x1x128.size a ≤ S256x8x128.size a
  inb_S256x8x128_S256x1x128_0_6_0 : ∀ a, (![0, 6, 0] : Fin 3 → Nat) a + S256x1x128.size a ≤ S256x8x128.size a
  inb_S256x8x128_S256x1x128_0_7_0 : ∀ a, (![0, 7, 0] : Fin 3 → Nat) a + S256x1x128.size a ≤ S256x8x128.size a
  shapeCasts_S1024x768_S1x1024x768 : S1024x768.ShapeCasts S1x1024x768
  dot_S1024x1024_S768x1024_S1024x768_1_1_0_0_n_n_wf : DotDims.WF S1024x1024 S768x1024 S1024x768 [1] [1] [0] [0] [] []
  dot_S81x128_S81x768_S128x768_0_0_1_1_n_n_wf : DotDims.WF S81x128 S81x768 S128x768 [0] [0] [1] [1] [] []
  dot_S256x128_S256x768_S128x768_0_0_1_1_n_n_wf : DotDims.WF S256x128 S256x768 S128x768 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S256x8x128.size a < S50257x8x128.size a
  hwx0_0 : ∀ i : grid0.Coords, EltTy.bits .f32 = 32 ∨ (Rect.unit (s := S50257x8x128) (fun a => cc0_transform_0 i a * S256x8x128.size a) (fun a => (Pipeline.Clip.of (cc0_transform_0 i a) (S256x8x128.size a) (S50257x8x128.size a)).extent (S256x8x128.size a)) fun a => Pipeline.Clip.inb (Pipeline.Clip.ok_of (hstart0_0 i a))).WholeWords (EltTy.packing .f32)
  hwxs0_0 : ∀ i : grid0.Coords, EltTy.bits .f32 = 32 ∨ (Rect.unit (s := S256x8x128) (fun _ => 0) (fun a => (Pipeline.Clip.of (cc0_transform_0 i a) (S256x8x128.size a) (S50257x8x128.size a)).extent (S256x8x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S256x768.size a < S50257x768.size a
  hwx0_2 : ∀ i : grid0.Coords, EltTy.bits .f32 = 32 ∨ (Rect.unit (s := S50257x768) (fun a => cc0_transform_2 i a * S256x768.size a) (fun a => (Pipeline.Clip.of (cc0_transform_2 i a) (S256x768.size a) (S50257x768.size a)).extent (S256x768.size a)) fun a => Pipeline.Clip.inb (Pipeline.Clip.ok_of (hstart0_2 i a))).WholeWords (EltTy.packing .f32)
  hwxs0_2 : ∀ i : grid0.Coords, EltTy.bits .f32 = 32 ∨ (Rect.unit (s := S256x768) (fun _ => 0) (fun a => (Pipeline.Clip.of (cc0_transform_2 i a) (S256x768.size a) (S50257x768.size a)).extent (S256x768.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x1024.size a ≤ S768x1024.size a
  hwx0_3 : ∀ i : grid0.Coords, EltTy.bits .f32 = 32 ∨ (Rect.block (s := S768x1024) S768x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x81x128.size a ≤ S8x81x128.size a
  hwx0_5 : ∀ i : grid0.Coords, EltTy.bits .f32 = 32 ∨ (Rect.block (s := S8x81x128) S8x81x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S81x768.size a ≤ S81x768.size a
  hwx0_6 : ∀ i : grid0.Coords, EltTy.bits .f32 = 32 ∨ (Rect.block (s := S81x768) S81x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x768.size a ≤ S1024x768.size a
  hwx0_7 : ∀ i : grid0.Coords, EltTy.bits .f32 = 32 ∨ (Rect.block (s := S1024x768) S1024x768.size (cc0_transform_7 i) (hinb0_7 i)).WholeWords (EltTy.packing .f32)

variable [Facts₀]

def dot_S1024x1024_S768x1024_S1024x768_1_1_0_0_n_n : DotDims S1024x1024 S768x1024 S1024x768 where
  lhsContracting := [1]
  rhsContracting := [1]
  lhsNonContracting := [0]
  rhsNonContracting := [0]
  lhsBatch := []
  rhsBatch := []
  wf := dot_S1024x1024_S768x1024_S1024x768_1_1_0_0_n_n_wf
def dot_S81x128_S81x768_S128x768_0_0_1_1_n_n : DotDims S81x128 S81x768 S128x768 where
  lhsContracting := [0]
  rhsContracting := [0]
  lhsNonContracting := [1]
  rhsNonContracting := [1]
  lhsBatch := []
  rhsBatch := []
  wf := dot_S81x128_S81x768_S128x768_0_0_1_1_n_n_wf
def dot_S256x128_S256x768_S128x768_0_0_1_1_n_n : DotDims S256x128 S256x768 S128x768 where
  lhsContracting := [0]
  rhsContracting := [0]
  lhsNonContracting := [1]
  rhsNonContracting := [1]
  lhsBatch := []
  rhsBatch := []
  wf := dot_S256x128_S256x768_S128x768_0_0_1_1_n_n_wf

abbrev win0_0 : Pipeline.Window sig grid0 :=
  Pipeline.Window.ofSpecClip (Memref.whole main_v1) S256x8x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v2) S256x768.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_arg4) S768x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S8x81x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S81x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1024x768.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1x1024x50257 : Shape := ⟨3, ![1, 1024, 50257]⟩
abbrev S1x1024x1024 : Shape := ⟨3, ![1, 1024, 1024]⟩
abbrev S768x50257 : Shape := ⟨2, ![768, 50257]⟩
abbrev S768 : Shape := ⟨1, ![768]⟩
abbrev S768x1024 : Shape := ⟨2, ![768, 1024]⟩
abbrev S1x1024x768 : Shape := ⟨3, ![1, 1024, 768]⟩
abbrev S1x1x768 : Shape := ⟨3, ![1, 1, 768]⟩

abbrev nBuf : Space → Nat
  | .hbm => 15
  | .vmem => 0
  | .smem => 0
  | _ => 0

abbrev bufTy : (tb : Table) → Fin (tcTables nBuf tb) → BufTy
  | .hbm, ⟨0, _⟩ => ⟨S1x1024x50257, .f32⟩
  | .hbm, ⟨1, _⟩ => ⟨S1x1024x1024, .f32⟩
  | .hbm, ⟨2, _⟩ => ⟨S768x50257, .f32⟩
  | .hbm, ⟨3, _⟩ => ⟨S768, .f32⟩
  | .hbm, ⟨4, _⟩ => ⟨S768x1024, .f32⟩
  | .hbm, ⟨5, _⟩ => ⟨S768, .f32⟩
  | .hbm, ⟨6, _⟩ => ⟨S1x1024x768, .f32⟩
  | .hbm, ⟨7, _⟩ => ⟨S1x1x768, .f32⟩
  | .hbm, ⟨8, _⟩ => ⟨S1x1024x768, .f32⟩
  | .hbm, ⟨9, _⟩ => ⟨S1x1024x768, .f32⟩
  | .hbm, ⟨10, _⟩ => ⟨S1x1024x768, .f32⟩
  | .hbm, ⟨11, _⟩ => ⟨S1x1x768, .f32⟩
  | .hbm, ⟨12, _⟩ => ⟨S1x1024x768, .f32⟩
  | .hbm, ⟨13, _⟩ => ⟨S1x1024x768, .f32⟩
  | .hbm, ⟨14, _⟩ => ⟨S1x1024x768, .f32⟩
  | _, _ => ⟨S1x1024x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S1x1024x768_0_1_2 : S1x1x768.BroadcastsInDim S1x1024x768 (![0, 1, 2] : Fin 3 → Fin S1x1024x768.rank)
  dot_S1x1024x50257_S768x50257_S1x1024x768_2_1_01_0_n_n_wf : DotDims.WF S1x1024x50257 S768x50257 S1x1024x768 [2] [1] [0, 1] [0] [] []
  dot_S1x1024x1024_S768x1024_S1x1024x768_2_1_01_0_n_n_wf : DotDims.WF S1x1024x1024 S768x1024 S1x1024x768 [2] [1] [0, 1] [0] [] []

variable [Facts₀]

def dot_S1x1024x50257_S768x50257_S1x1024x768_2_1_01_0_n_n : DotDims S1x1024x50257 S768x50257 S1x1024x768 where
  lhsContracting := [2]
  rhsContracting := [1]
  lhsNonContracting := [0, 1]
  rhsNonContracting := [0]
  lhsBatch := []
  rhsBatch := []
  wf := dot_S1x1024x50257_S768x50257_S1x1024x768_2_1_01_0_n_n_wf
def dot_S1x1024x1024_S768x1024_S1x1024x768_2_1_01_0_n_n : DotDims S1x1024x1024 S768x1024 S1x1024x768 where
  lhsContracting := [2]
  rhsContracting := [1]
  lhsNonContracting := [0, 1]
  rhsNonContracting := [0]
  lhsBatch := []
  rhsBatch := []
  wf := dot_S1x1024x1024_S768x1024_S1x1024x768_2_1_01_0_n_n_wf

class Facts : Prop extends Facts₀ where

variable [Facts]
-- ==== Proof.KRunA.lean ====
/-
  The kernel body at the first grid point, where the branch on the grid coordinate is taken: on any whole staging
  memrefs, the seven inputs at given contents and the output's buffer at anything, the body runs to a continuation
  that holds the inputs unchanged and the output's buffer with a list of pieces written — the whole block (the
  positional product plus the bias row), then each 128-row band twice (the ragged tail of the vocabulary axis, then
  the first full block of it).
-/
import proofs.«112730_g86148454023849_cont_9to1_m_880_17_alg».proof.Proof.Gen.Kernel.Launch
import proofs.«112730_g86148454023849_cont_9to1_m_880_17_alg».proof.Proof.Gen.Kernel.Skeleton
import proofs.«112730_g86148454023849_cont_9to1_m_880_17_alg».proof.Proof.Gen.Kernel.Points
import proofs.«112730_g86148454023849_cont_9to1_m_880_17_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch condition as a proposition over the grid coordinates: the coordinate is zero. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val % 196 = 0 :=
  (by decide +kernel : ∀ t : Fin grid0.N, cond0 (grid0.coords t) ↔ t.val % 196 = 0)

set_option maxHeartbeats 4000000 in
/-- The body where the branch is taken. -/
noncomputable def runA (c : Dev nD) (i : grid0.Coords) (arg1 : Memref sig .tc .vmem S256x8x128 .f32) (harg1 : arg1.IsWhole) (arg2 : Memref sig .tc .vmem S1024x1024 .f32) (harg2 : arg2.IsWhole) (arg3 : Memref sig .tc .vmem S256x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc0 : cond0 i)
    (x1 : Vec F S256x8x128 .f32) (x2 : Vec F S1024x1024 .f32) (x3 : Vec F S256x768 .f32) (x4 : Vec F S768x1024 .f32) (x5 : Vec F S1x768 .f32) (x6 : Vec F S8x81x128 .f32) (x7 : Vec F S81x768 .f32) :
    { L : List (View.Piece (Elt F) S1024x768 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L)) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨?_, fun E K => ?run⟩
  case run =>
    simp only [cc0__body_eq_skeleton]; unfold cc0__body_skel
    simp only [k0_part3_eq_skeleton, k0_part1_eq_skeleton, k0_part2_eq_skeleton, k0_part4_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H8

end Cert.Kernel.Body

end
-- ==== Proof.KRunB.lean ====
/-
  The kernel body at every later grid point, where the branch on the grid coordinate is not taken: the output's
  buffer arrives at its running contents, and each of its eight 128-row bands is read, added to the band's product
  over this point's block of the vocabulary axis, and stored back.
-/
import proofs.«112730_g86148454023849_cont_9to1_m_880_17_alg».proof.Proof.KRunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the branch is not taken. -/
noncomputable def runB (c : Dev nD) (i : grid0.Coords) (arg1 : Memref sig .tc .vmem S256x8x128 .f32) (harg1 : arg1.IsWhole) (arg2 : Memref sig .tc .vmem S1024x1024 .f32) (harg2 : arg2.IsWhole) (arg3 : Memref sig .tc .vmem S256x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc0 : ¬cond0 i)
    (x1 : Vec F S256x8x128 .f32) (x2 : Vec F S1024x1024 .f32) (x3 : Vec F S256x768 .f32) (x4 : Vec F S768x1024 .f32) (x5 : Vec F S1x768 .f32) (x6 : Vec F S8x81x128 .f32) (x7 : Vec F S81x768 .f32) (xo : Vec F S1024x768 .f32) :
    { L : List (View.Piece (Elt F) S1024x768 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xo
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L)) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨?_, fun E K => ?run⟩
  case run =>
    simp only [cc0__body_eq_skeleton]; unfold cc0__body_skel
    simp only [k0_part3_eq_skeleton, k0_part1_eq_skeleton, k0_part2_eq_skeleton, k0_part4_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7; obtain rfl := harg8.eq_unread hf8
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H8

end Cert.Kernel.Body

end
-- ==== Proof.KBody.lean ====
/-
  The frame of the kernel's program as printed, read at the word level.

  The output's staging buffer is resident: its block index never moves, it is never fetched, and it is written back
  after the last grid point only. So what it holds after point t is defined by recursion on the point: at point 0
  the body overwrites it (the branch taken), at every later point the body adds this point's contribution to what
  the point before left (the branch not taken).

  The two windows along the vocabulary axis (50257 rows in blocks of 256) are declared with blocks that could hang
  over the array's end, but the grid has 196 points and 196 * 256 = 50176 <= 50257: no block of the grid is cut, so
  a fetch fills the whole staging buffer and nothing of its earlier contents is left.
-/
import proofs.«112730_g86148454023849_cont_9to1_m_880_17_alg».proof.Proof.KRunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window, through which its contents are stated (the choice does not matter). -/
abbrev VO : View sig .tc .vmem S1024x768 .f32 := (Memref.whole cc0_stg7_0 : Memref sig .tc .vmem S1024x768 .f32).view

/-- Each window's current staging memref at point `t`, as the pipeline passes it, and its wholeness. -/
abbrev ms0 (t : Fin cfg0.N) : Memref sig .tc .vmem S256x8x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x768 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S768x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x768 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S8x81x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S81x768 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x768 .f32 := win0_7.stage (cfg0.slots t 7)
abbrev hs7 (t : Fin cfg0.N) : (ms7 t).IsWhole := hstage0_7 ((cfg0.slots t 7).cast nbuf0_7)

/-! ## What each case leaves in the output's buffer -/

/-- Where the branch is taken the pieces cover the block (the first store is of the whole block). -/
theorem coverA (c : Dev nD) (i : grid0.Coords) (arg1 : Memref sig .tc .vmem S256x8x128 .f32) (harg1 : arg1.IsWhole) (arg2 : Memref sig .tc .vmem S1024x1024 .f32) (harg2 : arg2.IsWhole) (arg3 : Memref sig .tc .vmem S256x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc0 : cond0 i)
    (x1 : Vec F S256x8x128 .f32) (x2 : Vec F S1024x1024 .f32) (x3 : Vec F S256x768 .f32) (x4 : Vec F S768x1024 .f32) (x5 : Vec F S1x768 .f32) (x6 : Vec F S8x81x128 .f32) (x7 : Vec F S81x768 .f32) (y : S1024x768.Idx) :
    ∃ pc ∈ (runA c i arg1 harg1 arg2 harg2 arg3 harg3 arg4 harg4 arg5 harg5 arg6 harg6 arg7 harg7 arg8 harg8 hc0 x1 x2 x3 x4 x5 x6 x7).1, y ∈ pc.1.set :=
  View.cover_of_tiledL (runA c i arg1 harg1 arg2 harg2 arg3 harg3 arg4 harg4 arg5 harg5 arg6 harg6 arg7 harg7 arg8 harg8 hc0 x1 x2 x3 x4 x5 x6 x7).1 S1024x768.size (by sl_kernel_rfl) y

/-- What the body leaves there: its pieces read back. -/
def outA (c : Dev nD) (i : grid0.Coords) (arg1 : Memref sig .tc .vmem S256x8x128 .f32) (harg1 : arg1.IsWhole) (arg2 : Memref sig .tc .vmem S1024x1024 .f32) (harg2 : arg2.IsWhole) (arg3 : Memref sig .tc .vmem S256x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc0 : cond0 i)
    (x1 : Vec F S256x8x128 .f32) (x2 : Vec F S1024x1024 .f32) (x3 : Vec F S256x768 .f32) (x4 : Vec F S768x1024 .f32) (x5 : Vec F S1x768 .f32) (x6 : Vec F S8x81x128 .f32) (x7 : Vec F S81x768 .f32) : Vec F S1024x768 .f32 :=
  VO.read (Elt F) (VO.writes (Elt F) VO.junk (runA c i arg1 harg1 arg2 harg2 arg3 harg3 arg4 harg4 arg5 harg5 arg6 harg6 arg7 harg7 arg8 harg8 hc0 x1 x2 x3 x4 x5 x6 x7).1)

/-- Where the branch is not taken the eight bands' stores tile the block. -/
theorem coverB (c : Dev nD) (i : grid0.Coords) (arg1 : Memref sig .tc .vmem S256x8x128 .f32) (harg1 : arg1.IsWhole) (arg2 : Memref sig .tc .vmem S1024x1024 .f32) (harg2 : arg2.IsWhole) (arg3 : Memref sig .tc .vmem S256x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc0 : ¬cond0 i)
    (x1 : Vec F S256x8x128 .f32) (x2 : Vec F S1024x1024 .f32) (x3 : Vec F S256x768 .f32) (x4 : Vec F S768x1024 .f32) (x5 : Vec F S1x768 .f32) (x6 : Vec F S8x81x128 .f32) (x7 : Vec F S81x768 .f32) (xo : Vec F S1024x768 .f32) (y : S1024x768.Idx) :
    ∃ pc ∈ (runB c i arg1 harg1 arg2 harg2 arg3 harg3 arg4 harg4 arg5 harg5 arg6 harg6 arg7 harg7 arg8 harg8 hc0 x1 x2 x3 x4 x5 x6 x7 xo).1, y ∈ pc.1.set :=
  View.cover_of_tiledL (runB c i arg1 harg1 arg2 harg2 arg3 harg3 arg4 harg4 arg5 harg5 arg6 harg6 arg7 harg7 arg8 harg8 hc0 x1 x2 x3 x4 x5 x6 x7 xo).1 S128x768.size (by sl_kernel_rfl) y

/-- What the body leaves there: its pieces read back. -/
def outB (c : Dev nD) (i : grid0.Coords) (arg1 : Memref sig .tc .vmem S256x8x128 .f32) (harg1 : arg1.IsWhole) (arg2 : Memref sig .tc .vmem S1024x1024 .f32) (harg2 : arg2.IsWhole) (arg3 : Memref sig .tc .vmem S256x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc0 : ¬cond0 i)
    (x1 : Vec F S256x8x128 .f32) (x2 : Vec F S1024x1024 .f32) (x3 : Vec F S256x768 .f32) (x4 : Vec F S768x1024 .f32) (x5 : Vec F S1x768 .f32) (x6 : Vec F S8x81x128 .f32) (x7 : Vec F S81x768 .f32) (xo : Vec F S1024x768 .f32) : Vec F S1024x768 .f32 :=
  VO.read (Elt F) (VO.writes (Elt F) VO.junk (runB c i arg1 harg1 arg2 harg2 arg3 harg3 arg4 harg4 arg5 harg5 arg6 harg6 arg7 harg7 arg8 harg8 hc0 x1 x2 x3 x4 x5 x6 x7 xo).1)

/-! ## The blocks of the two windows along the vocabulary axis -/

/-- Window 0's block at point `t` laid in a full staging buffer (no block of the grid is cut, so the filler is
    nowhere read). -/
def blk0 (c : Dev nD) (t : Fin cfg0.N) : Vec F S256x8x128 .f32 :=
  win0_0.fill (grid0.coords t) (fun _ => Scalar.ofBits .f32 0#32) (iblk m c 0 t)
/-- Window 2's likewise. -/
def blk2 (c : Dev nD) (t : Fin cfg0.N) : Vec F S256x768 .f32 :=
  win0_2.fill (grid0.coords t) (fun _ => Scalar.ofBits .f32 0#32) (iblk m c 2 t)

/-- No block of the grid hangs over the end of the 50257 rows. -/
theorem clip0 : ∀ t : Fin cfg0.N, ∀ a, (cfg0.win 0).clip (cfg0.grid.coords t) a = none :=
  (by decide +kernel : ∀ t : Fin grid0.N, ∀ a, win0_0.clip (grid0.coords t) a = none)
theorem clip2 : ∀ t : Fin cfg0.N, ∀ a, (cfg0.win 2).clip (cfg0.grid.coords t) a = none :=
  (by decide +kernel : ∀ t : Fin grid0.N, ∀ a, win0_2.clip (grid0.coords t) a = none)

/-! ## The accumulation -/

/-- What the output's staging buffer holds after the body at point `n`. -/
def outsAt (c : Dev nD) : (n : ℕ) → n < cfg0.N → Vec F S1024x768 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) ((hcond0 ⟨0, hn⟩).mpr (Nat.zero_mod _)) (blk0 m c ⟨0, hn⟩) (iblk m c 1 ⟨0, hn⟩) (blk2 m c ⟨0, hn⟩) (iblk m c 3 ⟨0, hn⟩) (iblk m c 4 ⟨0, hn⟩) (iblk m c 5 ⟨0, hn⟩) (iblk m c 6 ⟨0, hn⟩)
  | n + 1, hn =>
    if h0 : (n + 1) % 196 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) ((hcond0 ⟨n + 1, hn⟩).mpr h0) (blk0 m c ⟨n + 1, hn⟩) (iblk m c 1 ⟨n + 1, hn⟩) (blk2 m c ⟨n + 1, hn⟩) (iblk m c 3 ⟨n + 1, hn⟩) (iblk m c 4 ⟨n + 1, hn⟩) (iblk m c 5 ⟨n + 1, hn⟩) (iblk m c 6 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (fun h => h0 ((hcond0 ⟨n + 1, hn⟩).mp h)) (blk0 m c ⟨n + 1, hn⟩) (iblk m c 1 ⟨n + 1, hn⟩) (blk2 m c ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn))

theorem outsAt_A (c : Dev nD) (t : Fin cfg0.N) (h0 : t.val % 196 = 0) :
    outsAt m c t.val t.isLt = outA c (grid0.coords t) (ms0 t) (hs0 t) (ms1 t) (hs1 t) (ms2 t) (hs2 t) (ms3 t) (hs3 t) (ms4 t) (hs4 t) (ms5 t) (hs5 t) (ms6 t) (hs6 t) (ms7 t) (hs7 t) ((hcond0 t).mpr h0) (blk0 m c t) (iblk m c 1 t) (blk2 m c t) (iblk m c 3 t) (iblk m c 4 t) (iblk m c 5 t) (iblk m c 6 t) := by
  obtain ⟨n, hn⟩ := t
  cases n with
  | zero => exact rfl
  | succ n => exact (dif_pos h0).trans rfl

theorem outsAt_B (c : Dev nD) (t : Fin cfg0.N) (h0 : ¬t.val % 196 = 0) :
    outsAt m c t.val t.isLt = outB c (grid0.coords t) (ms0 t) (hs0 t) (ms1 t) (hs1 t) (ms2 t) (hs2 t) (ms3 t) (hs3 t) (ms4 t) (hs4 t) (ms5 t) (hs5 t) (ms6 t) (hs6 t) (ms7 t) (hs7 t) (fun h => h0 ((hcond0 t).mp h)) (blk0 m c t) (iblk m c 1 t) (blk2 m c t) (iblk m c 3 t) (iblk m c 4 t) (iblk m c 5 t) (iblk m c 6 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the
    output's at the accumulation; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => iblk m c 1 t
    | ⟨2, _⟩ => blk2 m c t
    | ⟨3, _⟩ => iblk m c 3 t
    | ⟨4, _⟩ => iblk m c 4 t
    | ⟨5, _⟩ => iblk m c 5 t
    | ⟨6, _⟩ => iblk m c 6 t
    | ⟨7, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = blk0 m c t := by dsimp only [dats]
theorem after1 (c : Dev nD) (t : Fin cfg0.N) : (dats m 0 c).after 1 t = iblk m c 1 t := by dsimp only [dats]
theorem after2 (c : Dev nD) (t : Fin cfg0.N) : (dats m 0 c).after 2 t = blk2 m c t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outsAt m c t.val t.isLt := by dsimp only [dats]

/-- Each uncut input's current staging buffer holds its block at every point, fetched there or not. -/
theorem before1 (c : Dev nD) (t : Fin cfg0.N) (d) : (dats m 0 c).before 1 t d = iblk m c 1 t :=
  before0_1_of m (dats m 0 c) (A_eq m c 1) (after1 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- The two windows along the vocabulary axis are fetched at every point, and the fetch fills the whole buffer. -/
theorem before0 (c : Dev nD) (t : Fin cfg0.N) (d) : (dats m 0 c).before 0 t d = blk0 m c t := by
  unfold Dat.before; rw [if_pos (fetch0_0 t)]
  rw [Dat.fetched_of_clip_none (dats m 0 c) 0 t (clip0 t) d (fun _ => Scalar.ofBits .f32 0#32)]
  unfold Dat.fetched Dat.blockOf blk0 iblk; rw [A_eq]
theorem before2 (c : Dev nD) (t : Fin cfg0.N) (d) : (dats m 0 c).before 2 t d = blk2 m c t := by
  unfold Dat.before; rw [if_pos (fetch0_2 t)]
  rw [Dat.fetched_of_clip_none (dats m 0 c) 2 t (clip2 t) d (fun _ => Scalar.ofBits .f32 0#32)]
  unfold Dat.fetched Dat.blockOf blk2 iblk; rw [A_eq]

/-- At a later point the output's buffer holds what the body left at the point before: it was not written back
    between (only the last point writes back), and the window is live and uncut. -/
theorem before7_B (c : Dev nD) (t : Fin cfg0.N) (h0 : ¬t.val % 196 = 0) (d) :
    (dats m 0 c).before 7 t d = (outsAt m c (t.val - 1) (Nat.lt_of_le_of_lt (Nat.sub_le _ _) t.isLt)) := by
  have hN : t.val < 196 := lt_of_lt_of_eq t.isLt (show cfg0.N = 196 from N_0)
  rw [Dat.before_out_kept _ 7 rfl t (by omega) (Bool.eq_false_iff.mpr fun h => by have := (flush0_7 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1600000 in
/-- The body at any point: the inputs' memrefs hold their blocks; the first point is the branch taken, every later
    point the branch not taken with the buffer at what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  have hN : t.val < 196 := lt_of_lt_of_eq t.isLt (show cfg0.N = 196 from N_0)
  by_cases h0 : t.val % 196 = 0
  · rw [outsAt_A m c t h0]
    unfold outA
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c (grid0.coords t) _ _ _ _ _ _ _ _ _ _ _ _ _ _ _ _ ((hcond0 t).mpr h0) (blk0 m c t) (iblk m c 1 t) (blk2 m c t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverA c _ _ _ _ _ _ _ _ _ _ _ _ _ _ _ _ _ _ _ _ _ _ _ _ _)
  · rw [outsAt_B m c t h0]
    simp only [before7_B m c t h0]
    unfold outB
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB c (grid0.coords t) _ _ _ _ _ _ _ _ _ _ _ _ _ _ _ _ (fun h => h0 ((hcond0 t).mp h)) (blk0 m c t) (iblk m c 1 t) (blk2 m c t) (iblk m c 3 t) (iblk m c 4 t) (iblk m c 5 t) (iblk m c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverB c _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KiRunA.lean ====
/-
  The kernel body at the first grid point, where the branch on the grid coordinate is taken: on any whole staging
  memrefs, the seven inputs at given contents and the output's buffer at anything, the body runs to a continuation
  that holds the inputs unchanged and the output's buffer with a list of pieces written — the whole block (the
  positional product plus the bias row), then each 128-row band twice (the ragged tail of the vocabulary axis, then
  the first full block of it).
-/
import proofs.«112730_g86148454023849_cont_9to1_m_880_17_alg».proof.Proof.Gen.KernelIdeal.Launch
import proofs.«112730_g86148454023849_cont_9to1_m_880_17_alg».proof.Proof.Gen.KernelIdeal.Skeleton
import proofs.«112730_g86148454023849_cont_9to1_m_880_17_alg».proof.Proof.Gen.KernelIdeal.Points
import proofs.«112730_g86148454023849_cont_9to1_m_880_17_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch condition as a proposition over the grid coordinates: the coordinate is zero. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val % 196 = 0 :=
  (by decide +kernel : ∀ t : Fin grid0.N, cond0 (grid0.coords t) ↔ t.val % 196 = 0)

set_option maxHeartbeats 4000000 in
/-- The body where the branch is taken. -/
noncomputable def runA (c : Dev nD) (i : grid0.Coords) (arg1 : Memref sig .tc .vmem S256x8x128 .f32) (harg1 : arg1.IsWhole) (arg2 : Memref sig .tc .vmem S1024x1024 .f32) (harg2 : arg2.IsWhole) (arg3 : Memref sig .tc .vmem S256x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc0 : cond0 i)
    (x1 : Vec F S256x8x128 .f32) (x2 : Vec F S1024x1024 .f32) (x3 : Vec F S256x768 .f32) (x4 : Vec F S768x1024 .f32) (x5 : Vec F S1x768 .f32) (x6 : Vec F S8x81x128 .f32) (x7 : Vec F S81x768 .f32) :
    { L : List (View.Piece (Elt F) S1024x768 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L)) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨?_, fun E K => ?run⟩
  case run =>
    simp only [cc0__body_eq_skeleton]; unfold cc0__body_skel
    simp only [k0_part3_eq_skeleton, k0_part1_eq_skeleton, k0_part2_eq_skeleton, k0_part4_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H8

end Cert.KernelIdeal.Body

end
-- ==== Proof.KiRunB.lean ====
/-
  The kernel body at every later grid point, where the branch on the grid coordinate is not taken: the output's
  buffer arrives at its running contents, and each of its eight 128-row bands is read, added to the band's product
  over this point's block of the vocabulary axis, and stored back.
-/
import proofs.«112730_g86148454023849_cont_9to1_m_880_17_alg».proof.Proof.KiRunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the branch is not taken. -/
noncomputable def runB (c : Dev nD) (i : grid0.Coords) (arg1 : Memref sig .tc .vmem S256x8x128 .f32) (harg1 : arg1.IsWhole) (arg2 : Memref sig .tc .vmem S1024x1024 .f32) (harg2 : arg2.IsWhole) (arg3 : Memref sig .tc .vmem S256x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc0 : ¬cond0 i)
    (x1 : Vec F S256x8x128 .f32) (x2 : Vec F S1024x1024 .f32) (x3 : Vec F S256x768 .f32) (x4 : Vec F S768x1024 .f32) (x5 : Vec F S1x768 .f32) (x6 : Vec F S8x81x128 .f32) (x7 : Vec F S81x768 .f32) (xo : Vec F S1024x768 .f32) :
    { L : List (View.Piece (Elt F) S1024x768 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xo
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L)) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨?_, fun E K => ?run⟩
  case run =>
    simp only [cc0__body_eq_skeleton]; unfold cc0__body_skel
    simp only [k0_part3_eq_skeleton, k0_part1_eq_skeleton, k0_part2_eq_skeleton, k0_part4_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7; obtain rfl := harg8.eq_unread hf8
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H8

end Cert.KernelIdeal.Body

end
-- ==== Proof.KiBody.lean ====
/-
  The frame of the idealized kernel's program, and what its output array holds afterwards.

  The output's staging buffer is resident: its block index never moves, it is never fetched, and it is written back
  after the last grid point only. So what it holds after point t is defined by recursion on the point: at point 0
  the body overwrites it (the branch taken), at every later point the body adds this point's contribution to what
  the point before left (the branch not taken).

  The two windows along the vocabulary axis (50257 rows in blocks of 256) are declared with blocks that could hang
  over the array's end, but the grid has 196 points and 196 * 256 = 50176 <= 50257: no block of the grid is cut, so
  a fetch fills the whole staging buffer and nothing of its earlier contents is left.
-/
import proofs.«112730_g86148454023849_cont_9to1_m_880_17_alg».proof.Proof.KiRunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window, through which its contents are stated (the choice does not matter). -/
abbrev VO : View sig .tc .vmem S1024x768 .f32 := (Memref.whole cc0_stg7_0 : Memref sig .tc .vmem S1024x768 .f32).view

/-- Each window's current staging memref at point `t`, as the pipeline passes it, and its wholeness. -/
abbrev ms0 (t : Fin cfg0.N) : Memref sig .tc .vmem S256x8x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x768 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S768x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x768 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S8x81x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S81x768 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x768 .f32 := win0_7.stage (cfg0.slots t 7)
abbrev hs7 (t : Fin cfg0.N) : (ms7 t).IsWhole := hstage0_7 ((cfg0.slots t 7).cast nbuf0_7)

/-! ## What each case leaves in the output's buffer -/

/-- Where the branch is taken the pieces cover the block (the first store is of the whole block). -/
theorem coverA (c : Dev nD) (i : grid0.Coords) (arg1 : Memref sig .tc .vmem S256x8x128 .f32) (harg1 : arg1.IsWhole) (arg2 : Memref sig .tc .vmem S1024x1024 .f32) (harg2 : arg2.IsWhole) (arg3 : Memref sig .tc .vmem S256x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc0 : cond0 i)
    (x1 : Vec F S256x8x128 .f32) (x2 : Vec F S1024x1024 .f32) (x3 : Vec F S256x768 .f32) (x4 : Vec F S768x1024 .f32) (x5 : Vec F S1x768 .f32) (x6 : Vec F S8x81x128 .f32) (x7 : Vec F S81x768 .f32) (y : S1024x768.Idx) :
    ∃ pc ∈ (runA c i arg1 harg1 arg2 harg2 arg3 harg3 arg4 harg4 arg5 harg5 arg6 harg6 arg7 harg7 arg8 harg8 hc0 x1 x2 x3 x4 x5 x6 x7).1, y ∈ pc.1.set :=
  View.cover_of_tiledL (runA c i arg1 harg1 arg2 harg2 arg3 harg3 arg4 harg4 arg5 harg5 arg6 harg6 arg7 harg7 arg8 harg8 hc0 x1 x2 x3 x4 x5 x6 x7).1 S1024x768.size (by sl_kernel_rfl) y

/-- What the body leaves there: its pieces read back. -/
def outA (c : Dev nD) (i : grid0.Coords) (arg1 : Memref sig .tc .vmem S256x8x128 .f32) (harg1 : arg1.IsWhole) (arg2 : Memref sig .tc .vmem S1024x1024 .f32) (harg2 : arg2.IsWhole) (arg3 : Memref sig .tc .vmem S256x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc0 : cond0 i)
    (x1 : Vec F S256x8x128 .f32) (x2 : Vec F S1024x1024 .f32) (x3 : Vec F S256x768 .f32) (x4 : Vec F S768x1024 .f32) (x5 : Vec F S1x768 .f32) (x6 : Vec F S8x81x128 .f32) (x7 : Vec F S81x768 .f32) : Vec F S1024x768 .f32 :=
  VO.read (Elt F) (VO.writes (Elt F) VO.junk (runA c i arg1 harg1 arg2 harg2 arg3 harg3 arg4 harg4 arg5 harg5 arg6 harg6 arg7 harg7 arg8 harg8 hc0 x1 x2 x3 x4 x5 x6 x7).1)

/-- Where the branch is not taken the eight bands' stores tile the block. -/
theorem coverB (c : Dev nD) (i : grid0.Coords) (arg1 : Memref sig .tc .vmem S256x8x128 .f32) (harg1 : arg1.IsWhole) (arg2 : Memref sig .tc .vmem S1024x1024 .f32) (harg2 : arg2.IsWhole) (arg3 : Memref sig .tc .vmem S256x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc0 : ¬cond0 i)
    (x1 : Vec F S256x8x128 .f32) (x2 : Vec F S1024x1024 .f32) (x3 : Vec F S256x768 .f32) (x4 : Vec F S768x1024 .f32) (x5 : Vec F S1x768 .f32) (x6 : Vec F S8x81x128 .f32) (x7 : Vec F S81x768 .f32) (xo : Vec F S1024x768 .f32) (y : S1024x768.Idx) :
    ∃ pc ∈ (runB c i arg1 harg1 arg2 harg2 arg3 harg3 arg4 harg4 arg5 harg5 arg6 harg6 arg7 harg7 arg8 harg8 hc0 x1 x2 x3 x4 x5 x6 x7 xo).1, y ∈ pc.1.set :=
  View.cover_of_tiledL (runB c i arg1 harg1 arg2 harg2 arg3 harg3 arg4 harg4 arg5 harg5 arg6 harg6 arg7 harg7 arg8 harg8 hc0 x1 x2 x3 x4 x5 x6 x7 xo).1 S128x768.size (by sl_kernel_rfl) y

/-- What the body leaves there: its pieces read back. -/
def outB (c : Dev nD) (i : grid0.Coords) (arg1 : Memref sig .tc .vmem S256x8x128 .f32) (harg1 : arg1.IsWhole) (arg2 : Memref sig .tc .vmem S1024x1024 .f32) (harg2 : arg2.IsWhole) (arg3 : Memref sig .tc .vmem S256x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc0 : ¬cond0 i)
    (x1 : Vec F S256x8x128 .f32) (x2 : Vec F S1024x1024 .f32) (x3 : Vec F S256x768 .f32) (x4 : Vec F S768x1024 .f32) (x5 : Vec F S1x768 .f32) (x6 : Vec F S8x81x128 .f32) (x7 : Vec F S81x768 .f32) (xo : Vec F S1024x768 .f32) : Vec F S1024x768 .f32 :=
  VO.read (Elt F) (VO.writes (Elt F) VO.junk (runB c i arg1 harg1 arg2 harg2 arg3 harg3 arg4 harg4 arg5 harg5 arg6 harg6 arg7 harg7 arg8 harg8 hc0 x1 x2 x3 x4 x5 x6 x7 xo).1)

/-! ## The blocks of the two windows along the vocabulary axis -/

/-- Window 0's block at point `t` laid in a full staging buffer (no block of the grid is cut, so the filler is
    nowhere read). -/
def blk0 (c : Dev nD) (t : Fin cfg0.N) : Vec F S256x8x128 .f32 :=
  win0_0.fill (grid0.coords t) (fun _ => Scalar.ofBits .f32 0#32) (iblk m c 0 t)
/-- Window 2's likewise. -/
def blk2 (c : Dev nD) (t : Fin cfg0.N) : Vec F S256x768 .f32 :=
  win0_2.fill (grid0.coords t) (fun _ => Scalar.ofBits .f32 0#32) (iblk m c 2 t)

/-- No block of the grid hangs over the end of the 50257 rows. -/
theorem clip0 : ∀ t : Fin cfg0.N, ∀ a, (cfg0.win 0).clip (cfg0.grid.coords t) a = none :=
  (by decide +kernel : ∀ t : Fin grid0.N, ∀ a, win0_0.clip (grid0.coords t) a = none)
theorem clip2 : ∀ t : Fin cfg0.N, ∀ a, (cfg0.win 2).clip (cfg0.grid.coords t) a = none :=
  (by decide +kernel : ∀ t : Fin grid0.N, ∀ a, win0_2.clip (grid0.coords t) a = none)

/-! ## The accumulation -/

/-- What the output's staging buffer holds after the body at point `n`. -/
def outsAt (c : Dev nD) : (n : ℕ) → n < cfg0.N → Vec F S1024x768 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) ((hcond0 ⟨0, hn⟩).mpr (Nat.zero_mod _)) (blk0 m c ⟨0, hn⟩) (iblk m c 1 ⟨0, hn⟩) (blk2 m c ⟨0, hn⟩) (iblk m c 3 ⟨0, hn⟩) (iblk m c 4 ⟨0, hn⟩) (iblk m c 5 ⟨0, hn⟩) (iblk m c 6 ⟨0, hn⟩)
  | n + 1, hn =>
    if h0 : (n + 1) % 196 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) ((hcond0 ⟨n + 1, hn⟩).mpr h0) (blk0 m c ⟨n + 1, hn⟩) (iblk m c 1 ⟨n + 1, hn⟩) (blk2 m c ⟨n + 1, hn⟩) (iblk m c 3 ⟨n + 1, hn⟩) (iblk m c 4 ⟨n + 1, hn⟩) (iblk m c 5 ⟨n + 1, hn⟩) (iblk m c 6 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (fun h => h0 ((hcond0 ⟨n + 1, hn⟩).mp h)) (blk0 m c ⟨n + 1, hn⟩) (iblk m c 1 ⟨n + 1, hn⟩) (blk2 m c ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn))

theorem outsAt_A (c : Dev nD) (t : Fin cfg0.N) (h0 : t.val % 196 = 0) :
    outsAt m c t.val t.isLt = outA c (grid0.coords t) (ms0 t) (hs0 t) (ms1 t) (hs1 t) (ms2 t) (hs2 t) (ms3 t) (hs3 t) (ms4 t) (hs4 t) (ms5 t) (hs5 t) (ms6 t) (hs6 t) (ms7 t) (hs7 t) ((hcond0 t).mpr h0) (blk0 m c t) (iblk m c 1 t) (blk2 m c t) (iblk m c 3 t) (iblk m c 4 t) (iblk m c 5 t) (iblk m c 6 t) := by
  obtain ⟨n, hn⟩ := t
  cases n with
  | zero => exact rfl
  | succ n => exact (dif_pos h0).trans rfl

theorem outsAt_B (c : Dev nD) (t : Fin cfg0.N) (h0 : ¬t.val % 196 = 0) :
    outsAt m c t.val t.isLt = outB c (grid0.coords t) (ms0 t) (hs0 t) (ms1 t) (hs1 t) (ms2 t) (hs2 t) (ms3 t) (hs3 t) (ms4 t) (hs4 t) (ms5 t) (hs5 t) (ms6 t) (hs6 t) (ms7 t) (hs7 t) (fun h => h0 ((hcond0 t).mp h)) (blk0 m c t) (iblk m c 1 t) (blk2 m c t) (iblk m c 3 t) (iblk m c 4 t) (iblk m c 5 t) (iblk m c 6 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the
    output's at the accumulation; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => iblk m c 1 t
    | ⟨2, _⟩ => blk2 m c t
    | ⟨3, _⟩ => iblk m c 3 t
    | ⟨4, _⟩ => iblk m c 4 t
    | ⟨5, _⟩ => iblk m c 5 t
    | ⟨6, _⟩ => iblk m c 6 t
    | ⟨7, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = blk0 m c t := by dsimp only [dats]
theorem after1 (c : Dev nD) (t : Fin cfg0.N) : (dats m 0 c).after 1 t = iblk m c 1 t := by dsimp only [dats]
theorem after2 (c : Dev nD) (t : Fin cfg0.N) : (dats m 0 c).after 2 t = blk2 m c t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outsAt m c t.val t.isLt := by dsimp only [dats]

/-- Each uncut input's current staging buffer holds its block at every point, fetched there or not. -/
theorem before1 (c : Dev nD) (t : Fin cfg0.N) (d) : (dats m 0 c).before 1 t d = iblk m c 1 t :=
  before0_1_of m (dats m 0 c) (A_eq m c 1) (after1 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- The two windows along the vocabulary axis are fetched at every point, and the fetch fills the whole buffer. -/
theorem before0 (c : Dev nD) (t : Fin cfg0.N) (d) : (dats m 0 c).before 0 t d = blk0 m c t := by
  unfold Dat.before; rw [if_pos (fetch0_0 t)]
  rw [Dat.fetched_of_clip_none (dats m 0 c) 0 t (clip0 t) d (fun _ => Scalar.ofBits .f32 0#32)]
  unfold Dat.fetched Dat.blockOf blk0 iblk; rw [A_eq]
theorem before2 (c : Dev nD) (t : Fin cfg0.N) (d) : (dats m 0 c).before 2 t d = blk2 m c t := by
  unfold Dat.before; rw [if_pos (fetch0_2 t)]
  rw [Dat.fetched_of_clip_none (dats m 0 c) 2 t (clip2 t) d (fun _ => Scalar.ofBits .f32 0#32)]
  unfold Dat.fetched Dat.blockOf blk2 iblk; rw [A_eq]

/-- At a later point the output's buffer holds what the body left at the point before: it was not written back
    between (only the last point writes back), and the window is live and uncut. -/
theorem before7_B (c : Dev nD) (t : Fin cfg0.N) (h0 : ¬t.val % 196 = 0) (d) :
    (dats m 0 c).before 7 t d = (outsAt m c (t.val - 1) (Nat.lt_of_le_of_lt (Nat.sub_le _ _) t.isLt)) := by
  have hN : t.val < 196 := lt_of_lt_of_eq t.isLt (show cfg0.N = 196 from N_0)
  rw [Dat.before_out_kept _ 7 rfl t (by omega) (Bool.eq_false_iff.mpr fun h => by have := (flush0_7 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1600000 in
/-- The body at any point: the inputs' memrefs hold their blocks; the first point is the branch taken, every later
    point the branch not taken with the buffer at what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  have hN : t.val < 196 := lt_of_lt_of_eq t.isLt (show cfg0.N = 196 from N_0)
  by_cases h0 : t.val % 196 = 0
  · rw [outsAt_A m c t h0]
    unfold outA
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c (grid0.coords t) _ _ _ _ _ _ _ _ _ _ _ _ _ _ _ _ ((hcond0 t).mpr h0) (blk0 m c t) (iblk m c 1 t) (blk2 m c t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverA c _ _ _ _ _ _ _ _ _ _ _ _ _ _ _ _ _ _ _ _ _ _ _ _ _)
  · rw [outsAt_B m c t h0]
    simp only [before7_B m c t h0]
    unfold outB
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB c (grid0.coords t) _ _ _ _ _ _ _ _ _ _ _ _ _ _ _ _ (fun h => h0 ((hcond0 t).mp h)) (blk0 m c t) (iblk m c 1 t) (blk2 m c t) (iblk m c 3 t) (iblk m c 4 t) (iblk m c 5 t) (iblk m c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverB c _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.KiPay.lean ====
/-
  The body's arithmetic read at an entry, over the extended reals.

  Every store of the body writes one 128-row band of the output block (or, once, the whole block), and its value is
  "what the band held, plus a product contracted over the leading (vocabulary) axis of both factors": at entry (l, d)
  of the band, old(l, d) + sum_j a(j, l) * w(j, d), with j over the 256 rows of a full block or the 81 rows of the
  ragged tail. The whole-block store is the positional product, contracted over the second axis of both factors,
  plus the bias row. A change of float format is the identity here, a shape cast moves entries and computes nothing.
-/
import proofs.«112730_g86148454023849_cont_9to1_m_880_17_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pay

open Cert.KernelIdeal Cert.KernelIdeal.Gen
open Idealize.ShloMosaic Idealize.ShloMosaic.TcCoe Idealize.ShloMosaic.ValueIdx

/-! ## The three matrix products as plain sums -/

/-- A product contracted over the leading axis of both factors, 256 terms. -/
theorem lhs256_nc (i : S128x768.Idx) (q : dot_S256x128_S256x768_S128x768_0_0_1_1_n_n.contr.Idx) : (dot_S256x128_S256x768_S128x768_0_0_1_1_n_n.lhsIdx i q 1).val = (i 0).val := by
  unfold DotDims.lhsIdx
  rw [dif_neg (show ¬(1 : Fin S256x128.rank) ∈ dot_S256x128_S256x768_S128x768_0_0_1_1_n_n.lhsBatch by decide), dif_pos (show (1 : Fin S256x128.rank) ∈ dot_S256x128_S256x768_S128x768_0_0_1_1_n_n.lhsNonContracting by decide)]
  rfl
theorem rhs256_nc (i : S128x768.Idx) (q : dot_S256x128_S256x768_S128x768_0_0_1_1_n_n.contr.Idx) : (dot_S256x128_S256x768_S128x768_0_0_1_1_n_n.rhsIdx i q 1).val = (i 1).val := by
  unfold DotDims.rhsIdx
  rw [dif_neg (show ¬(1 : Fin S256x768.rank) ∈ dot_S256x128_S256x768_S128x768_0_0_1_1_n_n.rhsBatch by decide), dif_pos (show (1 : Fin S256x768.rank) ∈ dot_S256x128_S256x768_S128x768_0_0_1_1_n_n.rhsNonContracting by decide)]
  rfl
theorem mm256_apply (a : FVec Ideal S256x128 .bf16) (b : FVec Ideal S256x768 .bf16) (p : Fin 128) (q : Fin 768) :
    matmul dot_S256x128_S256x768_S128x768_0_0_1_1_n_n none a b (constant (F := Ideal) S128x768 .f32 0x00000000#32) (ix2 p q)
      = ∑ k : Fin 256, a (ix2 k p) * b (ix2 k q) := by
  show FloatOps.matmul _ _ _ _ _ _ = _
  rw [Ideal.matmul_constant_zero_apply, ← Equiv.sum_comp (ValueIdx.contrEquiv1 dot_S256x128_S256x768_S128x768_0_0_1_1_n_n 256 rfl rfl).symm]
  refine Finset.sum_congr rfl fun k _ => ?_
  have hk := ValueIdx.contrEquiv1_symm_val dot_S256x128_S256x768_S128x768_0_0_1_1_n_n 256 rfl rfl k
  have el : dot_S256x128_S256x768_S128x768_0_0_1_1_n_n.lhsIdx (ix2 p q) ((ValueIdx.contrEquiv1 dot_S256x128_S256x768_S128x768_0_0_1_1_n_n 256 rfl rfl).symm k) = ix2 k p := funext fun ax => Fin.ext (by
    match ax with
    | ⟨0, _⟩ => exact (dot_S256x128_S256x768_S128x768_0_0_1_1_n_n.lhsIdx_val_of_single rfl _ _).trans hk
    | ⟨1, _⟩ => exact lhs256_nc _ _)
  have er : dot_S256x128_S256x768_S128x768_0_0_1_1_n_n.rhsIdx (ix2 p q) ((ValueIdx.contrEquiv1 dot_S256x128_S256x768_S128x768_0_0_1_1_n_n 256 rfl rfl).symm k) = ix2 k q := funext fun ax => Fin.ext (by
    match ax with
    | ⟨0, _⟩ => exact (dot_S256x128_S256x768_S128x768_0_0_1_1_n_n.rhsIdx_val_of_single rfl _ _).trans hk
    | ⟨1, _⟩ => exact rhs256_nc _ _)
  rw [el, er]

/-- The same over the 81 rows of the ragged tail. -/
theorem lhs81_nc (i : S128x768.Idx) (q : dot_S81x128_S81x768_S128x768_0_0_1_1_n_n.contr.Idx) : (dot_S81x128_S81x768_S128x768_0_0_1_1_n_n.lhsIdx i q 1).val = (i 0).val := by
  unfold DotDims.lhsIdx
  rw [dif_neg (show ¬(1 : Fin S81x128.rank) ∈ dot_S81x128_S81x768_S128x768_0_0_1_1_n_n.lhsBatch by decide), dif_pos (show (1 : Fin S81x128.rank) ∈ dot_S81x128_S81x768_S128x768_0_0_1_1_n_n.lhsNonContracting by decide)]
  rfl
theorem rhs81_nc (i : S128x768.Idx) (q : dot_S81x128_S81x768_S128x768_0_0_1_1_n_n.contr.Idx) : (dot_S81x128_S81x768_S128x768_0_0_1_1_n_n.rhsIdx i q 1).val = (i 1).val := by
  unfold DotDims.rhsIdx
  rw [dif_neg (show ¬(1 : Fin S81x768.rank) ∈ dot_S81x128_S81x768_S128x768_0_0_1_1_n_n.rhsBatch by decide), dif_pos (show (1 : Fin S81x768.rank) ∈ dot_S81x128_S81x768_S128x768_0_0_1_1_n_n.rhsNonContracting by decide)]
  rfl
theorem mm81_apply (a : FVec Ideal S81x128 .bf16) (b : FVec Ideal S81x768 .bf16) (p : Fin 128) (q : Fin 768) :
    matmul dot_S81x128_S81x768_S128x768_0_0_1_1_n_n none a b (constant (F := Ideal) S128x768 .f32 0x00000000#32) (ix2 p q)
      = ∑ k : Fin 81, a (ix2 k p) * b (ix2 k q) := by
  show FloatOps.matmul _ _ _ _ _ _ = _
  rw [Ideal.matmul_constant_zero_apply, ← Equiv.sum_comp (ValueIdx.contrEquiv1 dot_S81x128_S81x768_S128x768_0_0_1_1_n_n 81 rfl rfl).symm]
  refine Finset.sum_congr rfl fun k _ => ?_
  have hk := ValueIdx.contrEquiv1_symm_val dot_S81x128_S81x768_S128x768_0_0_1_1_n_n 81 rfl rfl k
  have el : dot_S81x128_S81x768_S128x768_0_0_1_1_n_n.lhsIdx (ix2 p q) ((ValueIdx.contrEquiv1 dot_S81x128_S81x768_S128x768_0_0_1_1_n_n 81 rfl rfl).symm k) = ix2 k p := funext fun ax => Fin.ext (by
    match ax with
    | ⟨0, _⟩ => exact (dot_S81x128_S81x768_S128x768_0_0_1_1_n_n.lhsIdx_val_of_single rfl _ _).trans hk
    | ⟨1, _⟩ => exact lhs81_nc _ _)
  have er : dot_S81x128_S81x768_S128x768_0_0_1_1_n_n.rhsIdx (ix2 p q) ((ValueIdx.contrEquiv1 dot_S81x128_S81x768_S128x768_0_0_1_1_n_n 81 rfl rfl).symm k) = ix2 k q := funext fun ax => Fin.ext (by
    match ax with
    | ⟨0, _⟩ => exact (dot_S81x128_S81x768_S128x768_0_0_1_1_n_n.rhsIdx_val_of_single rfl _ _).trans hk
    | ⟨1, _⟩ => exact rhs81_nc _ _)
  rw [el, er]

/-- The positional product: contracted over the second axis of both factors, 1024 terms. -/
theorem lhs1024_nc (i : S1024x768.Idx) (q : dot_S1024x1024_S768x1024_S1024x768_1_1_0_0_n_n.contr.Idx) : (dot_S1024x1024_S768x1024_S1024x768_1_1_0_0_n_n.lhsIdx i q 0).val = (i 0).val := by
  unfold DotDims.lhsIdx
  rw [dif_neg (show ¬(0 : Fin S1024x1024.rank) ∈ dot_S1024x1024_S768x1024_S1024x768_1_1_0_0_n_n.lhsBatch by decide), dif_pos (show (0 : Fin S1024x1024.rank) ∈ dot_S1024x1024_S768x1024_S1024x768_1_1_0_0_n_n.lhsNonContracting by decide)]
  rfl
theorem rhs1024_nc (i : S1024x768.Idx) (q : dot_S1024x1024_S768x1024_S1024x768_1_1_0_0_n_n.contr.Idx) : (dot_S1024x1024_S768x1024_S1024x768_1_1_0_0_n_n.rhsIdx i q 0).val = (i 1).val := by
  unfold DotDims.rhsIdx
  rw [dif_neg (show ¬(0 : Fin S768x1024.rank) ∈ dot_S1024x1024_S768x1024_S1024x768_1_1_0_0_n_n.rhsBatch by decide), dif_pos (show (0 : Fin S768x1024.rank) ∈ dot_S1024x1024_S768x1024_S1024x768_1_1_0_0_n_n.rhsNonContracting by decide)]
  rfl
theorem mm1024_apply (a : FVec Ideal S1024x1024 .bf16) (b : FVec Ideal S768x1024 .bf16) (p : Fin 1024) (q : Fin 768) :
    matmul dot_S1024x1024_S768x1024_S1024x768_1_1_0_0_n_n none a b (constant (F := Ideal) S1024x768 .f32 0x00000000#32) (ix2 p q)
      = ∑ k : Fin 1024, a (ix2 p k) * b (ix2 q k) := by
  show FloatOps.matmul _ _ _ _ _ _ = _
  rw [Ideal.matmul_constant_zero_apply, ← Equiv.sum_comp (ValueIdx.contrEquiv1 dot_S1024x1024_S768x1024_S1024x768_1_1_0_0_n_n 1024 rfl rfl).symm]
  refine Finset.sum_congr rfl fun k _ => ?_
  have hk := ValueIdx.contrEquiv1_symm_val dot_S1024x1024_S768x1024_S1024x768_1_1_0_0_n_n 1024 rfl rfl k
  have el : dot_S1024x1024_S768x1024_S1024x768_1_1_0_0_n_n.lhsIdx (ix2 p q) ((ValueIdx.contrEquiv1 dot_S1024x1024_S768x1024_S1024x768_1_1_0_0_n_n 1024 rfl rfl).symm k) = ix2 p k := funext fun ax => Fin.ext (by
    match ax with
    | ⟨0, _⟩ => exact lhs1024_nc _ _
    | ⟨1, _⟩ => exact (dot_S1024x1024_S768x1024_S1024x768_1_1_0_0_n_n.lhsIdx_val_of_single rfl _ _).trans hk)
  have er : dot_S1024x1024_S768x1024_S1024x768_1_1_0_0_n_n.rhsIdx (ix2 p q) ((ValueIdx.contrEquiv1 dot_S1024x1024_S768x1024_S1024x768_1_1_0_0_n_n 1024 rfl rfl).symm k) = ix2 q k := funext fun ax => Fin.ext (by
    match ax with
    | ⟨0, _⟩ => exact rhs1024_nc _ _
    | ⟨1, _⟩ => exact (dot_S1024x1024_S768x1024_S1024x768_1_1_0_0_n_n.rhsIdx_val_of_single rfl _ _).trans hk)
  rw [el, er]

/-! ## The casts -/

/-- A [256, 1, 128] slab viewed as a [256, 128] matrix: entry (j, l) is the slab's (j, 0, l). -/
theorem cast256 {α : Type} (v : S256x1x128.Idx → α) (j : Fin 256) (l : Fin 128) :
    shapeCast S256x128 v shapeCasts_S256x1x128_S256x128 (ix2 j l) = v (ix3 j (0 : Fin 1) l) :=
  shapeCast_apply v _ _ _ (by
    rw [Shape.rowMajor_val_three, Shape.rowMajor_val_two]
    show (j.val * 1 + 0) * 128 + l.val = j.val * 128 + l.val
    omega)

/-- A [1, 81, 128] slab viewed as an [81, 128] matrix: entry (j, l) is the slab's (0, j, l). -/
theorem cast81 {α : Type} (v : S1x81x128.Idx → α) (j : Fin 81) (l : Fin 128) :
    shapeCast S81x128 v shapeCasts_S1x81x128_S81x128 (ix2 j l) = v (ix3 (0 : Fin 1) j l) :=
  shapeCast_1ab_ab_apply v _ j l

/-! ## The payloads -/

theorem pay15_apply (v3 : Vec Ideal S256x768 .f32) (j : Fin 256) (d : Fin 768) :
    k0_pay15 (F := Ideal) v3 (ix2 j d) = v3 (ix2 j d) := by
  unfold k0_pay15
  exact congrFun (shapeCast_self v3 _) _

theorem pay4_apply (v81 : Vec Ideal S81x768 .f32) (j : Fin 81) (d : Fin 768) :
    k0_pay4 (F := Ideal) v81 (ix2 j d) = v81 (ix2 j d) := by
  unfold k0_pay4
  exact congrFun (shapeCast_self v81 _) _

theorem pay22_apply (v54 : Vec Ideal S256x1x128 .f32) (j : Fin 256) (l : Fin 128) :
    k0_pay22 (F := Ideal) v54 (ix2 j l) = v54 (ix3 j (0 : Fin 1) l) := by
  unfold k0_pay22
  exact cast256 v54 j l

theorem pay10_apply (v124 : Vec Ideal S128x768 .f32) : k0_pay10 (F := Ideal) v124 = v124 := by
  unfold k0_pay10
  exact shapeCast_self v124 _

theorem pay11_apply (v126 : Vec Ideal S1x81x128 .f32) (j : Fin 81) (l : Fin 128) :
    k0_pay11 (F := Ideal) v126 (ix2 j l) = v126 (ix3 (0 : Fin 1) j l) := by
  unfold k0_pay11
  exact cast81 v126 j l

/-- The full-block bands whose weight block arrives as loaded. -/
theorem pay16_apply (w : Vec Ideal S256x768 .f32) (a : Vec Ideal S256x1x128 .f32) (o : Vec Ideal S128x768 .f32) (l : Fin 128) (d : Fin 768) :
    k0_pay16 (F := Ideal) w a o (ix2 l d) = o (ix2 l d) + ∑ j : Fin 256, a (ix3 j (0 : Fin 1) l) * w (ix2 j d) := by
  unfold k0_pay16
  refine congrArg₂ (· + ·) (congrFun (shapeCast_self o _) _) ((mm256_apply _ _ l d).trans (Finset.sum_congr rfl fun j _ => ?_))
  exact congrArg₂ (· * ·) (cast256 a j l) (pay15_apply w j d)

theorem pay17_apply (w : Vec Ideal S256x768 .f32) (a : Vec Ideal S256x1x128 .f32) (o : Vec Ideal S128x768 .f32) (l : Fin 128) (d : Fin 768) :
    k0_pay17 (F := Ideal) w a o (ix2 l d) = o (ix2 l d) + ∑ j : Fin 256, a (ix3 j (0 : Fin 1) l) * w (ix2 j d) := by
  unfold k0_pay17
  refine congrArg₂ (· + ·) (congrFun (shapeCast_self o _) _) ((mm256_apply _ _ l d).trans (Finset.sum_congr rfl fun j _ => ?_))
  exact congrArg₂ (· * ·) (cast256 a j l) (pay15_apply w j d)

theorem pay18_apply (w : Vec Ideal S256x768 .f32) (a : Vec Ideal S256x1x128 .f32) (o : Vec Ideal S128x768 .f32) (l : Fin 128) (d : Fin 768) :
    k0_pay18 (F := Ideal) w a o (ix2 l d) = o (ix2 l d) + ∑ j : Fin 256, a (ix3 j (0 : Fin 1) l) * w (ix2 j d) := by
  unfold k0_pay18
  refine congrArg₂ (· + ·) (congrFun (shapeCast_self o _) _) ((mm256_apply _ _ l d).trans (Finset.sum_congr rfl fun j _ => ?_))
  exact congrArg₂ (· * ·) (cast256 a j l) (pay15_apply w j d)

/-- The full-block bands whose weight block arrives already narrowed. -/
theorem pay19_apply (w : FVec Ideal S256x768 .bf16) (a : Vec Ideal S256x1x128 .f32) (o : Vec Ideal S128x768 .f32) (l : Fin 128) (d : Fin 768) :
    k0_pay19 (F := Ideal) w a o (ix2 l d) = o (ix2 l d) + ∑ j : Fin 256, a (ix3 j (0 : Fin 1) l) * w (ix2 j d) := by
  unfold k0_pay19
  refine congrArg₂ (· + ·) (congrFun (shapeCast_self o _) _) ((mm256_apply _ _ l d).trans (Finset.sum_congr rfl fun j _ => ?_))
  exact congrArg₂ (· * ·) (cast256 a j l) rfl

theorem pay20_apply (w : FVec Ideal S256x768 .bf16) (a : Vec Ideal S256x1x128 .f32) (o : Vec Ideal S128x768 .f32) (l : Fin 128) (d : Fin 768) :
    k0_pay20 (F := Ideal) w a o (ix2 l d) = o (ix2 l d) + ∑ j : Fin 256, a (ix3 j (0 : Fin 1) l) * w (ix2 j d) := by
  unfold k0_pay20
  refine congrArg₂ (· + ·) (congrFun (shapeCast_self o _) _) ((mm256_apply _ _ l d).trans (Finset.sum_congr rfl fun j _ => ?_))
  exact congrArg₂ (· * ·) (cast256 a j l) rfl

theorem pay21_apply (w : FVec Ideal S256x768 .bf16) (a : Vec Ideal S256x1x128 .f32) (o : Vec Ideal S128x768 .f32) (l : Fin 128) (d : Fin 768) :
    k0_pay21 (F := Ideal) w a o (ix2 l d) = o (ix2 l d) + ∑ j : Fin 256, a (ix3 j (0 : Fin 1) l) * w (ix2 j d) := by
  unfold k0_pay21
  refine congrArg₂ (· + ·) (congrFun (shapeCast_self o _) _) ((mm256_apply _ _ l d).trans (Finset.sum_congr rfl fun j _ => ?_))
  exact congrArg₂ (· * ·) (cast256 a j l) rfl

theorem pay2_apply (w : FVec Ideal S256x768 .bf16) (a : Vec Ideal S256x1x128 .f32) (o : Vec Ideal S128x768 .f32) (l : Fin 128) (d : Fin 768) :
    k0_pay2 (F := Ideal) w a o (ix2 l d) = o (ix2 l d) + ∑ j : Fin 256, a (ix3 j (0 : Fin 1) l) * w (ix2 j d) := by
  unfold k0_pay2
  refine congrArg₂ (· + ·) (congrFun (shapeCast_self o _) _) ((mm256_apply _ _ l d).trans (Finset.sum_congr rfl fun j _ => ?_))
  exact congrArg₂ (· * ·) (cast256 a j l) rfl

/-- The band whose activation slab arrives already narrowed. -/
theorem pay1_apply (w : FVec Ideal S256x768 .bf16) (a : FVec Ideal S256x128 .bf16) (o : Vec Ideal S128x768 .f32) (l : Fin 128) (d : Fin 768) :
    k0_pay1 (F := Ideal) w a o (ix2 l d) = o (ix2 l d) + ∑ j : Fin 256, a (ix2 j l) * w (ix2 j d) := by
  unfold k0_pay1
  exact congrArg₂ (· + ·) (congrFun (shapeCast_self o _) _) (mm256_apply _ _ l d)

/-- The tail bands whose weight rows arrive as loaded. -/
theorem pay5_apply (w : Vec Ideal S81x768 .f32) (o : Vec Ideal S128x768 .f32) (a : Vec Ideal S1x81x128 .f32) (l : Fin 128) (d : Fin 768) :
    k0_pay5 (F := Ideal) w o a (ix2 l d) = o (ix2 l d) + ∑ j : Fin 81, a (ix3 (0 : Fin 1) j l) * w (ix2 j d) := by
  unfold k0_pay5
  refine congrArg₂ (· + ·) (congrFun (shapeCast_self o _) _) ((mm81_apply _ _ l d).trans (Finset.sum_congr rfl fun j _ => ?_))
  exact congrArg₂ (· * ·) (cast81 a j l) (pay4_apply w j d)

theorem pay6_apply (w : Vec Ideal S81x768 .f32) (o : Vec Ideal S128x768 .f32) (a : Vec Ideal S1x81x128 .f32) (l : Fin 128) (d : Fin 768) :
    k0_pay6 (F := Ideal) w o a (ix2 l d) = o (ix2 l d) + ∑ j : Fin 81, a (ix3 (0 : Fin 1) j l) * w (ix2 j d) := by
  unfold k0_pay6
  refine congrArg₂ (· + ·) (congrFun (shapeCast_self o _) _) ((mm81_apply _ _ l d).trans (Finset.sum_congr rfl fun j _ => ?_))
  exact congrArg₂ (· * ·) (cast81 a j l) (pay4_apply w j d)

/-- The tail bands whose weight rows arrive already narrowed. -/
theorem pay7_apply (w : FVec Ideal S81x768 .bf16) (o : Vec Ideal S128x768 .f32) (a : Vec Ideal S1x81x128 .f32) (l : Fin 128) (d : Fin 768) :
    k0_pay7 (F := Ideal) w o a (ix2 l d) = o (ix2 l d) + ∑ j : Fin 81, a (ix3 (0 : Fin 1) j l) * w (ix2 j d) := by
  unfold k0_pay7
  refine congrArg₂ (· + ·) (congrFun (shapeCast_self o _) _) ((mm81_apply _ _ l d).trans (Finset.sum_congr rfl fun j _ => ?_))
  exact congrArg₂ (· * ·) (cast81 a j l) rfl

theorem pay8_apply (w : FVec Ideal S81x768 .bf16) (o : Vec Ideal S128x768 .f32) (a : Vec Ideal S1x81x128 .f32) (l : Fin 128) (d : Fin 768) :
    k0_pay8 (F := Ideal) w o a (ix2 l d) = o (ix2 l d) + ∑ j : Fin 81, a (ix3 (0 : Fin 1) j l) * w (ix2 j d) := by
  unfold k0_pay8
  refine congrArg₂ (· + ·) (congrFun (shapeCast_self o _) _) ((mm81_apply _ _ l d).trans (Finset.sum_congr rfl fun j _ => ?_))
  exact congrArg₂ (· * ·) (cast81 a j l) rfl

theorem pay9_apply (w : FVec Ideal S81x768 .bf16) (o : Vec Ideal S128x768 .f32) (a : Vec Ideal S1x81x128 .f32) (l : Fin 128) (d : Fin 768) :
    k0_pay9 (F := Ideal) w o a (ix2 l d) = o (ix2 l d) + ∑ j : Fin 81, a (ix3 (0 : Fin 1) j l) * w (ix2 j d) := by
  unfold k0_pay9
  refine congrArg₂ (· + ·) (congrFun (shapeCast_self o _) _) ((mm81_apply _ _ l d).trans (Finset.sum_congr rfl fun j _ => ?_))
  exact congrArg₂ (· * ·) (cast81 a j l) rfl

theorem pay13_apply (w : FVec Ideal S81x768 .bf16) (o : Vec Ideal S128x768 .f32) (a : Vec Ideal S1x81x128 .f32) (l : Fin 128) (d : Fin 768) :
    k0_pay13 (F := Ideal) w o a (ix2 l d) = o (ix2 l d) + ∑ j : Fin 81, a (ix3 (0 : Fin 1) j l) * w (ix2 j d) := by
  unfold k0_pay13
  refine congrArg₂ (· + ·) (congrFun (shapeCast_self o _) _) ((mm81_apply _ _ l d).trans (Finset.sum_congr rfl fun j _ => ?_))
  exact congrArg₂ (· * ·) (cast81 a j l) rfl

theorem pay14_apply (w : FVec Ideal S81x768 .bf16) (o : Vec Ideal S128x768 .f32) (a : Vec Ideal S1x81x128 .f32) (l : Fin 128) (d : Fin 768) :
    k0_pay14 (F := Ideal) w o a (ix2 l d) = o (ix2 l d) + ∑ j : Fin 81, a (ix3 (0 : Fin 1) j l) * w (ix2 j d) := by
  unfold k0_pay14
  refine congrArg₂ (· + ·) (congrFun (shapeCast_self o _) _) ((mm81_apply _ _ l d).trans (Finset.sum_congr rfl fun j _ => ?_))
  exact congrArg₂ (· * ·) (cast81 a j l) rfl

/-- The tail band whose two operands arrive already cast. -/
theorem pay12_apply (w : FVec Ideal S81x768 .bf16) (o : FVec Ideal S128x768 .f32) (a : FVec Ideal S81x128 .f32) (l : Fin 128) (d : Fin 768) :
    k0_pay12 (F := Ideal) w o a (ix2 l d) = o (ix2 l d) + ∑ j : Fin 81, a (ix2 j l) * w (ix2 j d) := by
  unfold k0_pay12
  exact congrArg₂ (· + ·) rfl (mm81_apply _ _ l d)

/-- The first store: the positional product plus the bias row. -/
theorem pay3_apply (x : Vec Ideal S1024x1024 .f32) (wp : Vec Ideal S768x1024 .f32) (b : Vec Ideal S1x768 .f32) (s : Fin 1024) (d : Fin 768) :
    k0_pay3 (F := Ideal) x wp b (ix2 s d) = ∑ p : Fin 1024, x (ix2 s p) * wp (ix2 d p) + b (ix2 (0 : Fin 1) d) := by
  unfold k0_pay3
  refine congrArg₂ (· + ·) ((mm1024_apply _ _ s d).trans (Finset.sum_congr rfl fun p _ => ?_)) ?_
  · exact congrArg₂ (· * ·) (congrFun (shapeCast_self x _) _) rfl
  · exact (broadcastTo_1b_ab_apply _ _ s d).trans (congrFun (shapeCast_self b _) _)

end Cert.KernelIdeal.Pay

end
-- ==== Proof.KiBands.lean ====
/-
  Reading a buffer that was written band by band.

  The output block [1024, 768] is stored in eight bands of 128 rows. A list of such stores (last made first) read
  at row r: a store of a band that does not hold row r is passed over, and the first store of the band that does
  hold it gives its payload at the row's position inside the band. A load of a band after some stores reads the same
  list at the band's rows; a load from a buffer holding known contents reads those contents at the loaded rectangle.
-/
import proofs.«112730_g86148454023849_cont_9to1_m_880_17_alg».proof.Proof.Gen.KernelIdeal.Skeleton
import Idealize.ShloMosaic.Lib.Pipeline.FrameBody
import Idealize.ShloMosaic.Lib.Pipeline.Frame
import Idealize.ShloMosaic.Lib.Pipeline.Value
import Idealize.ShloMosaic.Lib.ValueIdx

set_option maxRecDepth 16384

noncomputable section

namespace Cert.KernelIdeal.Bands

open Cert.KernelIdeal
open Idealize.ShloMosaic Idealize.ShloMosaic.TcCoe Idealize.ShloMosaic.ValueIdx Idealize.SL.Sem

variable {Val : EltTy → Type} [∀ e, Nonempty (Val e)]

/-- The band's rectangle places its entry (r - o, d) at (r, d). -/
theorem band_emb (o : ℕ) (inb : ∀ a, (![o, 0] : Fin 2 → ℕ) a + S128x768.size a ≤ S1024x768.size a) (r : Fin 1024) (d : Fin 768)
    (hlo : o ≤ r.val) (hhi : r.val < o + 128) :
    (Rect.unit (s := S1024x768) ![o, 0] S128x768.size inb).emb (ix2 (⟨r.val - o, by omega⟩ : Fin 128) d) = ix2 r d := by
  funext a; apply Fin.ext
  rw [Rect.emb_apply]
  match a with
  | ⟨0, _⟩ => show o + 1 * (r.val - o) = r.val; omega
  | ⟨1, _⟩ => show 0 + 1 * d.val = d.val; omega

/-- A store of another band is passed over. -/
theorem canon_skip (o : ℕ) (inb : ∀ a, (![o, 0] : Fin 2 → ℕ) a + S128x768.size a ≤ S1024x768.size a) (w : S128x768.Idx → Val .f32)
    (L : List (View.Piece Val S1024x768 .f32)) (r : Fin 1024) (d : Fin 768) (h : r.val < o ∨ o + 128 ≤ r.val) :
    View.canon ((⟨Rect.unit (s := S1024x768) ![o, 0] S128x768.size inb, w⟩ : View.Piece Val S1024x768 .f32) :: L) (ix2 r d)
      = View.canon L (ix2 r d) :=
  View.canon_cons_of_not_mem _ _ (fun hm => by
    have hm' : ix2 r d ∈ (Rect.unit (s := S1024x768) ![o, 0] S128x768.size inb).set := hm
    have h0 := (Rect.mem_set_unit.mp hm') (0 : Fin 2)
    have e0 : (((ix2 r d : S1024x768.Idx) 0 : Fin _) : ℕ) = r.val := rfl
    have e1 : ((![o, 0] : Fin 2 → ℕ) 0) = o := rfl
    have e2 : S128x768.size 0 = 128 := rfl
    rw [e0, e1, e2] at h0
    omega)

/-- The last store of the row's own band gives its payload. -/
theorem canon_hit (o : ℕ) (inb : ∀ a, (![o, 0] : Fin 2 → ℕ) a + S128x768.size a ≤ S1024x768.size a) (w : S128x768.Idx → Val .f32)
    (L : List (View.Piece Val S1024x768 .f32)) (r : Fin 1024) (d : Fin 768) (hlo : o ≤ r.val) (hhi : r.val < o + 128) :
    View.canon ((⟨Rect.unit (s := S1024x768) ![o, 0] S128x768.size inb, w⟩ : View.Piece Val S1024x768 .f32) :: L) (ix2 r d)
      = w (ix2 (⟨r.val - o, by omega⟩ : Fin 128) d) := by
  rw [← band_emb o inb r d hlo hhi]
  exact View.canon_cons_emb (Rect.unit (s := S1024x768) ![o, 0] S128x768.size inb) w L _

/-- A load of the row's band after the stores `L` reads `L` at the row. -/
theorem readCov_band {sig : RefSig} {κ : Kind} {sp : Space} (v : View sig κ sp S1024x768 .f32)
    (L : List (View.Piece Val S1024x768 .f32)) (o : ℕ) (inb : ∀ a, (![o, 0] : Fin 2 → ℕ) a + S128x768.size a ≤ S1024x768.size a)
    (r : Fin 1024) (d : Fin 768) (hlo : o ≤ r.val) (hhi : r.val < o + 128) :
    v.readCov L (Rect.unit (s := S1024x768) ![o, 0] S128x768.size inb).toLoadRect (ix2 (⟨r.val - o, by omega⟩ : Fin 128) d)
      = View.canon L (ix2 r d) := by
  rw [View.readCov_eq_canon']
  exact congrArg (View.canon L) (band_emb o inb r d hlo hhi)

/-- A load from a whole buffer holding `x` reads `x` at the rectangle's places. -/
theorem readAt_unread {sig : RefSig} {κ : Kind} {cs : Space} {s : Shape} {e : EltTy} (M : Memref sig κ cs s e) (h : M.IsWhole)
    (x : s.Idx → Val e) (B : Rect s) (j : B.shape.Idx) :
    View.readAt Val M.view B.toLoadRect (h.unread x) j = x (B.idx j) := by
  rw [View.readAt_eq_ld, h.read_unread]

/-- A load of the row's band from a buffer holding `xo` reads `xo` at the row. -/
theorem readAt_band {sig : RefSig} {κ : Kind} {cs : Space} (M : Memref sig κ cs S1024x768 .f32) (h : M.IsWhole)
    (xo : S1024x768.Idx → Val .f32) (o : ℕ) (inb : ∀ a, (![o, 0] : Fin 2 → ℕ) a + S128x768.size a ≤ S1024x768.size a)
    (r : Fin 1024) (d : Fin 768) (hlo : o ≤ r.val) (hhi : r.val < o + 128) :
    View.readAt Val M.view (Rect.unit (s := S1024x768) ![o, 0] S128x768.size inb).toLoadRect (h.unread xo) (ix2 (⟨r.val - o, by omega⟩ : Fin 128) d)
      = xo (ix2 r d) :=
  (readAt_unread M h xo _ _).trans (congrArg xo (band_emb o inb r d hlo hhi))

/-- A whole-buffer load reads the contents. -/
theorem readAt_whole {sig : RefSig} {κ : Kind} {cs : Space} {s : Shape} {e : EltTy} (M : Memref sig κ cs s e) (h : M.IsWhole)
    (x : s.Idx → Val e) (off : Fin s.rank → ℕ) (hz : off = fun _ => 0) (inb : ∀ a, off a + s.size a ≤ s.size a) :
    View.readAt Val M.view (Rect.unit (s := s) off s.size inb).toLoadRect (h.unread x) = x := by
  rw [View.readAt_eq_ld, h.read_unread]
  exact View.ld_unit_zero hz inb x

/-- Slab `g` of the activation block [256, 8, 128], loaded as [256, 1, 128]: its entry (j, 0, l) is the block's (j, g, l). -/
theorem readAt_slab {sig : RefSig} {κ : Kind} {cs : Space} (M : Memref sig κ cs S256x8x128 .f32) (h : M.IsWhole)
    (x : S256x8x128.Idx → Val .f32) (g : ℕ) (hg : g < 8) (inb : ∀ a, (![0, g, 0] : Fin 3 → ℕ) a + S256x1x128.size a ≤ S256x8x128.size a)
    (j : Fin 256) (l : Fin 128) :
    View.readAt Val M.view (Rect.unit (s := S256x8x128) ![0, g, 0] S256x1x128.size inb).toLoadRect (h.unread x) (ix3 j (0 : Fin 1) l)
      = x (ix3 j (⟨g, hg⟩ : Fin 8) l) := by
  refine (readAt_unread M h x _ _).trans (congrArg x ?_)
  funext a; apply Fin.ext
  match a with
  | ⟨0, _⟩ => show 0 + 1 * j.val = j.val; omega
  | ⟨1, _⟩ => show g + 1 * 0 = g; omega
  | ⟨2, _⟩ => show 0 + 1 * l.val = l.val; omega

/-- Slab `g` of the tail activations [8, 81, 128], loaded as [1, 81, 128]: its entry (0, j, l) is the block's (g, j, l). -/
theorem readAt_tslab {sig : RefSig} {κ : Kind} {cs : Space} (M : Memref sig κ cs S8x81x128 .f32) (h : M.IsWhole)
    (x : S8x81x128.Idx → Val .f32) (g : ℕ) (hg : g < 8) (inb : ∀ a, (![g, 0, 0] : Fin 3 → ℕ) a + S1x81x128.size a ≤ S8x81x128.size a)
    (j : Fin 81) (l : Fin 128) :
    View.readAt Val M.view (Rect.unit (s := S8x81x128) ![g, 0, 0] S1x81x128.size inb).toLoadRect (h.unread x) (ix3 (0 : Fin 1) j l)
      = x (ix3 (⟨g, hg⟩ : Fin 8) j l) := by
  refine (readAt_unread M h x _ _).trans (congrArg x ?_)
  funext a; apply Fin.ext
  match a with
  | ⟨0, _⟩ => show g + 1 * 0 = g; omega
  | ⟨1, _⟩ => show 0 + 1 * j.val = j.val; omega
  | ⟨2, _⟩ => show 0 + 1 * l.val = l.val; omega

end Cert.KernelIdeal.Bands

end
-- ==== Proof.KiOutB.lean ====
/-
  What a later grid point leaves in the output block, read at an entry: the entry of the running contents plus the
  product of this point's activation block and weight block over their 256 vocabulary rows,
      old(r, d) + sum_j a(j, r / 128, r % 128) * w(j, d),
  the row r of the output sitting in band r / 128 at position r % 128.
-/
import proofs.«112730_g86148454023849_cont_9to1_m_880_17_alg».proof.Proof.KiBody
import proofs.«112730_g86148454023849_cont_9to1_m_880_17_alg».proof.Proof.KiPay
import proofs.«112730_g86148454023849_cont_9to1_m_880_17_alg».proof.Proof.KiBands

set_option maxRecDepth 65536

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem

set_option maxHeartbeats 4000000 in
theorem outB_apply (c : Dev nD) (i : grid0.Coords) (arg1 : Memref sig .tc .vmem S256x8x128 .f32) (harg1 : arg1.IsWhole) (arg2 : Memref sig .tc .vmem S1024x1024 .f32) (harg2 : arg2.IsWhole) (arg3 : Memref sig .tc .vmem S256x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc0 : ¬cond0 i)
    (x1 : Vec Ideal S256x8x128 .f32) (x2 : Vec Ideal S1024x1024 .f32) (x3 : Vec Ideal S256x768 .f32) (x4 : Vec Ideal S768x1024 .f32) (x5 : Vec Ideal S1x768 .f32) (x6 : Vec Ideal S8x81x128 .f32) (x7 : Vec Ideal S81x768 .f32) (xo : Vec Ideal S1024x768 .f32) (r : Fin 1024) (d : Fin 768) :
    outB (F := Ideal) c i arg1 harg1 arg2 harg2 arg3 harg3 arg4 harg4 arg5 harg5 arg6 harg6 arg7 harg7 arg8 harg8 hc0 x1 x2 x3 x4 x5 x6 x7 xo (ix2 r d)
      = xo (ix2 r d) + ∑ j : Fin 256, x1 (ix3 j (⟨r.val / 128, by have := r.isLt; omega⟩ : Fin 8) (⟨r.val % 128, Nat.mod_lt _ (by decide)⟩ : Fin 128)) * x3 (ix2 j d) := by
  have hz2 : (![0, 0] : Fin 2 → ℕ) = fun _ => 0 := funext fun a => by fin_cases a <;> rfl
  have hr := r.isLt
  unfold outB
  rw [View.read_writes_junk_eq_canon]
  unfold runB
  dsimp only
  sl_unfold_words
  obtain h | h | h | h | h | h | h | h : r.val / 128 = 0 ∨ r.val / 128 = 1 ∨ r.val / 128 = 2 ∨ r.val / 128 = 3 ∨ r.val / 128 = 4 ∨ r.val / 128 = 5 ∨ r.val / 128 = 6 ∨ r.val / 128 = 7 := by omega
  · have hlo : 0 ≤ r.val := by omega
    have hhi : r.val < 0 + 128 := by omega
    refine (Bands.canon_skip 896 _ _ _ r d (by omega)).trans ?_
    refine (Bands.canon_skip 768 _ _ _ r d (by omega)).trans ?_
    refine (Bands.canon_skip 640 _ _ _ r d (by omega)).trans ?_
    refine (Bands.canon_skip 512 _ _ _ r d (by omega)).trans ?_
    refine (Bands.canon_skip 384 _ _ _ r d (by omega)).trans ?_
    refine (Bands.canon_skip 256 _ _ _ r d (by omega)).trans ?_
    refine (Bands.canon_skip 128 _ _ _ r d (by omega)).trans ?_
    refine (Bands.canon_hit 0 _ _ _ r d hlo hhi).trans ?_
    refine (Pay.pay16_apply _ _ _ _ d).trans ?_
    refine congrArg₂ (· + ·) ?_ (Finset.sum_congr rfl fun j _ => congrArg₂ (· * ·) ?_ ?_)
    · exact Bands.readAt_band _ _ xo 0 _ r d hlo hhi
    · exact (Bands.readAt_slab _ _ x1 0 (by omega) _ j _).trans (congrArg x1 (congrArg₂ (ix3 j) (Fin.ext (by show 0 = r.val / 128; omega)) (Fin.ext (by show r.val - 0 = r.val % 128; omega))))
    · exact congrFun (Bands.readAt_whole _ _ x3 _ hz2 _) _
  · have hlo : 128 ≤ r.val := by omega
    have hhi : r.val < 128 + 128 := by omega
    refine (Bands.canon_skip 896 _ _ _ r d (by omega)).trans ?_
    refine (Bands.canon_skip 768 _ _ _ r d (by omega)).trans ?_
    refine (Bands.canon_skip 640 _ _ _ r d (by omega)).trans ?_
    refine (Bands.canon_skip 512 _ _ _ r d (by omega)).trans ?_
    refine (Bands.canon_skip 384 _ _ _ r d (by omega)).trans ?_
    refine (Bands.canon_skip 256 _ _ _ r d (by omega)).trans ?_
    refine (Bands.canon_hit 128 _ _ _ r d hlo hhi).trans ?_
    refine (Pay.pay17_apply _ _ _ _ d).trans ?_
    refine congrArg₂ (· + ·) ?_ (Finset.sum_congr rfl fun j _ => congrArg₂ (· * ·) ?_ ?_)
    · exact Bands.readAt_band _ _ xo 128 _ r d hlo hhi
    · exact (Bands.readAt_slab _ _ x1 1 (by omega) _ j _).trans (congrArg x1 (congrArg₂ (ix3 j) (Fin.ext (by show 1 = r.val / 128; omega)) (Fin.ext (by show r.val - 128 = r.val % 128; omega))))
    · exact congrFun (Bands.readAt_whole _ _ x3 _ hz2 _) _
  · have hlo : 256 ≤ r.val := by omega
    have hhi : r.val < 256 + 128 := by omega
    refine (Bands.canon_skip 896 _ _ _ r d (by omega)).trans ?_
    refine (Bands.canon_skip 768 _ _ _ r d (by omega)).trans ?_
    refine (Bands.canon_skip 640 _ _ _ r d (by omega)).trans ?_
    refine (Bands.canon_skip 512 _ _ _ r d (by omega)).trans ?_
    refine (Bands.canon_skip 384 _ _ _ r d (by omega)).trans ?_
    refine (Bands.canon_hit 256 _ _ _ r d hlo hhi).trans ?_
    refine (Pay.pay18_apply _ _ _ _ d).trans ?_
    refine congrArg₂ (· + ·) ?_ (Finset.sum_congr rfl fun j _ => congrArg₂ (· * ·) ?_ ?_)
    · exact Bands.readAt_band _ _ xo 256 _ r d hlo hhi
    · exact (Bands.readAt_slab _ _ x1 2 (by omega) _ j _).trans (congrArg x1 (congrArg₂ (ix3 j) (Fin.ext (by show 2 = r.val / 128; omega)) (Fin.ext (by show r.val - 256 = r.val % 128; omega))))
    · exact congrFun (Bands.readAt_whole _ _ x3 _ hz2 _) _
  · have hlo : 384 ≤ r.val := by omega
    have hhi : r.val < 384 + 128 := by omega
    refine (Bands.canon_skip 896 _ _ _ r d (by omega)).trans ?_
    refine (Bands.canon_skip 768 _ _ _ r d (by omega)).trans ?_
    refine (Bands.canon_skip 640 _ _ _ r d (by omega)).trans ?_
    refine (Bands.canon_skip 512 _ _ _ r d (by omega)).trans ?_
    refine (Bands.canon_hit 384 _ _ _ r d hlo hhi).trans ?_
    refine (Pay.pay19_apply _ _ _ _ d).trans ?_
    refine congrArg₂ (· + ·) ?_ (Finset.sum_congr rfl fun j _ => congrArg₂ (· * ·) ?_ ?_)
    · exact Bands.readAt_band _ _ xo 384 _ r d hlo hhi
    · exact (Bands.readAt_slab _ _ x1 3 (by omega) _ j _).trans (congrArg x1 (congrArg₂ (ix3 j) (Fin.ext (by show 3 = r.val / 128; omega)) (Fin.ext (by show r.val - 384 = r.val % 128; omega))))
    · exact (Pay.pay15_apply _ j d).trans (congrFun (Bands.readAt_whole _ _ x3 _ hz2 _) _)
  · have hlo : 512 ≤ r.val := by omega
    have hhi : r.val < 512 + 128 := by omega
    refine (Bands.canon_skip 896 _ _ _ r d (by omega)).trans ?_
    refine (Bands.canon_skip 768 _ _ _ r d (by omega)).trans ?_
    refine (Bands.canon_skip 640 _ _ _ r d (by omega)).trans ?_
    refine (Bands.canon_hit 512 _ _ _ r d hlo hhi).trans ?_
    refine (Pay.pay20_apply _ _ _ _ d).trans ?_
    refine congrArg₂ (· + ·) ?_ (Finset.sum_congr rfl fun j _ => congrArg₂ (· * ·) ?_ ?_)
    · exact Bands.readAt_band _ _ xo 512 _ r d hlo hhi
    · exact (Bands.readAt_slab _ _ x1 4 (by omega) _ j _).trans (congrArg x1 (congrArg₂ (ix3 j) (Fin.ext (by show 4 = r.val / 128; omega)) (Fin.ext (by show r.val - 512 = r.val % 128; omega))))
    · exact (Pay.pay15_apply _ j d).trans (congrFun (Bands.readAt_whole _ _ x3 _ hz2 _) _)
  · have hlo : 640 ≤ r.val := by omega
    have hhi : r.val < 640 + 128 := by omega
    refine (Bands.canon_skip 896 _ _ _ r d (by omega)).trans ?_
    refine (Bands.canon_skip 768 _ _ _ r d (by omega)).trans ?_
    refine (Bands.canon_hit 640 _ _ _ r d hlo hhi).trans ?_
    refine (Pay.pay21_apply _ _ _ _ d).trans ?_
    refine congrArg₂ (· + ·) ?_ (Finset.sum_congr rfl fun j _ => congrArg₂ (· * ·) ?_ ?_)
    · exact Bands.readAt_band _ _ xo 640 _ r d hlo hhi
    · exact (Bands.readAt_slab _ _ x1 5 (by omega) _ j _).trans (congrArg x1 (congrArg₂ (ix3 j) (Fin.ext (by show 5 = r.val / 128; omega)) (Fin.ext (by show r.val - 640 = r.val % 128; omega))))
    · exact (Pay.pay15_apply _ j d).trans (congrFun (Bands.readAt_whole _ _ x3 _ hz2 _) _)
  · have hlo : 768 ≤ r.val := by omega
    have hhi : r.val < 768 + 128 := by omega
    refine (Bands.canon_skip 896 _ _ _ r d (by omega)).trans ?_
    refine (Bands.canon_hit 768 _ _ _ r d hlo hhi).trans ?_
    refine (Pay.pay1_apply _ _ _ _ d).trans ?_
    refine congrArg₂ (· + ·) ?_ (Finset.sum_congr rfl fun j _ => congrArg₂ (· * ·) ?_ ?_)
    · exact Bands.readAt_band _ _ xo 768 _ r d hlo hhi
    · exact ((Pay.pay22_apply _ j _).trans (Bands.readAt_slab _ _ x1 6 (by omega) _ j _)).trans (congrArg x1 (congrArg₂ (ix3 j) (Fin.ext (by show 6 = r.val / 128; omega)) (Fin.ext (by show r.val - 768 = r.val % 128; omega))))
    · exact (Pay.pay15_apply _ j d).trans (congrFun (Bands.readAt_whole _ _ x3 _ hz2 _) _)
  · have hlo : 896 ≤ r.val := by omega
    have hhi : r.val < 896 + 128 := by omega
    refine (Bands.canon_hit 896 _ _ _ r d hlo hhi).trans ?_
    refine (Pay.pay2_apply _ _ _ _ d).trans ?_
    refine congrArg₂ (· + ·) ?_ (Finset.sum_congr rfl fun j _ => congrArg₂ (· * ·) ?_ ?_)
    · exact Bands.readAt_band _ _ xo 896 _ r d hlo hhi
    · exact (Bands.readAt_slab _ _ x1 7 (by omega) _ j _).trans (congrArg x1 (congrArg₂ (ix3 j) (Fin.ext (by show 7 = r.val / 128; omega)) (Fin.ext (by show r.val - 896 = r.val % 128; omega))))
    · exact (Pay.pay15_apply _ j d).trans (congrFun (Bands.readAt_whole _ _ x3 _ hz2 _) _)

end Cert.KernelIdeal.Body

end
-- ==== Proof.KiOutA.lean ====
/-
  What the first grid point leaves in the output block, read at an entry. The body first stores the positional
  product plus the bias row over the whole block, then adds to each 128-row band the ragged tail's product, then adds
  to each band the first full block's product; each addition reads the band back. At entry (r, d), with the row r in
  band r / 128 at position r % 128:
      ((sum_p x(r, p) * wp(d, p) + b(0, d)) + sum_j at(r / 128, j, r % 128) * wt(j, d)) + sum_j a(j, r / 128, r % 128) * w(j, d).
-/
import proofs.«112730_g86148454023849_cont_9to1_m_880_17_alg».proof.Proof.KiOutB

set_option maxRecDepth 65536

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem

set_option maxHeartbeats 8000000 in
theorem outA_apply (c : Dev nD) (i : grid0.Coords) (arg1 : Memref sig .tc .vmem S256x8x128 .f32) (harg1 : arg1.IsWhole) (arg2 : Memref sig .tc .vmem S1024x1024 .f32) (harg2 : arg2.IsWhole) (arg3 : Memref sig .tc .vmem S256x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc0 : cond0 i)
    (x1 : Vec Ideal S256x8x128 .f32) (x2 : Vec Ideal S1024x1024 .f32) (x3 : Vec Ideal S256x768 .f32) (x4 : Vec Ideal S768x1024 .f32) (x5 : Vec Ideal S1x768 .f32) (x6 : Vec Ideal S8x81x128 .f32) (x7 : Vec Ideal S81x768 .f32) (r : Fin 1024) (d : Fin 768) :
    outA (F := Ideal) c i arg1 harg1 arg2 harg2 arg3 harg3 arg4 harg4 arg5 harg5 arg6 harg6 arg7 harg7 arg8 harg8 hc0 x1 x2 x3 x4 x5 x6 x7 (ix2 r d)
      = ((∑ p : Fin 1024, x2 (ix2 r p) * x4 (ix2 d p) + x5 (ix2 (0 : Fin 1) d))
          + ∑ j : Fin 81, x6 (ix3 (⟨r.val / 128, by have := r.isLt; omega⟩ : Fin 8) j (⟨r.val % 128, Nat.mod_lt _ (by decide)⟩ : Fin 128)) * x7 (ix2 j d))
        + ∑ j : Fin 256, x1 (ix3 j (⟨r.val / 128, by have := r.isLt; omega⟩ : Fin 8) (⟨r.val % 128, Nat.mod_lt _ (by decide)⟩ : Fin 128)) * x3 (ix2 j d) := by
  have hz2 : (![0, 0] : Fin 2 → ℕ) = fun _ => 0 := funext fun a => by fin_cases a <;> rfl
  have hr := r.isLt
  unfold outA
  rw [View.read_writes_junk_eq_canon]
  unfold runA
  dsimp only
  sl_unfold_words
  obtain h | h | h | h | h | h | h | h : r.val / 128 = 0 ∨ r.val / 128 = 1 ∨ r.val / 128 = 2 ∨ r.val / 128 = 3 ∨ r.val / 128 = 4 ∨ r.val / 128 = 5 ∨ r.val / 128 = 6 ∨ r.val / 128 = 7 := by omega
  · have hlo : 0 ≤ r.val := by omega
    have hhi : r.val < 0 + 128 := by omega
    refine (Bands.canon_skip 896 _ _ _ r d (by omega)).trans ?_
    refine (Bands.canon_skip 768 _ _ _ r d (by omega)).trans ?_
    refine (Bands.canon_skip 640 _ _ _ r d (by omega)).trans ?_
    refine (Bands.canon_skip 512 _ _ _ r d (by omega)).trans ?_
    refine (Bands.canon_skip 384 _ _ _ r d (by omega)).trans ?_
    refine (Bands.canon_skip 256 _ _ _ r d (by omega)).trans ?_
    refine (Bands.canon_skip 128 _ _ _ r d (by omega)).trans ?_
    refine (Bands.canon_hit 0 _ _ _ r d hlo hhi).trans ?_
    refine (Pay.pay16_apply _ _ _ _ d).trans ?_
    refine congrArg₂ (· + ·) ?_ (Finset.sum_congr rfl fun j _ => congrArg₂ (· * ·) ?_ ?_)
    · refine (Bands.readCov_band _ _ 0 _ r d hlo hhi).trans ?_
      refine (Bands.canon_skip 896 _ _ _ r d (by omega)).trans ?_
      refine (Bands.canon_skip 768 _ _ _ r d (by omega)).trans ?_
      refine (Bands.canon_skip 640 _ _ _ r d (by omega)).trans ?_
      refine (Bands.canon_skip 512 _ _ _ r d (by omega)).trans ?_
      refine (Bands.canon_skip 384 _ _ _ r d (by omega)).trans ?_
      refine (Bands.canon_skip 256 _ _ _ r d (by omega)).trans ?_
      refine (Bands.canon_skip 128 _ _ _ r d (by omega)).trans ?_
      refine (Bands.canon_hit 0 _ _ _ r d hlo hhi).trans ?_
      refine (Pay.pay5_apply _ _ _ _ d).trans ?_
      refine congrArg₂ (· + ·) ?_ (Finset.sum_congr rfl fun j _ => congrArg₂ (· * ·) ?_ ?_)
      · refine (Bands.readCov_band _ _ 0 _ r d hlo hhi).trans ?_
        refine (congrFun (View.canon_cons_unit_zero hz2 _ _ _) _).trans ?_
        refine (Pay.pay3_apply _ _ _ r d).trans ?_
        refine congrArg₂ (· + ·) (Finset.sum_congr rfl fun p _ => congrArg₂ (· * ·) ?_ ?_) ?_
        · exact congrFun (Bands.readAt_whole _ _ x2 _ hz2 _) _
        · exact congrFun (Bands.readAt_whole _ _ x4 _ hz2 _) _
        · exact congrFun (Bands.readAt_whole _ _ x5 _ hz2 _) _
      · exact (Bands.readAt_tslab _ _ x6 0 (by omega) _ j _).trans (congrArg x6 (congrArg₂ (fun (a : Fin 8) (b : Fin 128) => ix3 a j b) (Fin.ext (by show 0 = r.val / 128; omega)) (Fin.ext (by show r.val - 0 = r.val % 128; omega))))
      · exact congrFun (Bands.readAt_whole _ _ x7 _ hz2 _) _
    · exact (Bands.readAt_slab _ _ x1 0 (by omega) _ j _).trans (congrArg x1 (congrArg₂ (ix3 j) (Fin.ext (by show 0 = r.val / 128; omega)) (Fin.ext (by show r.val - 0 = r.val % 128; omega))))
    · exact congrFun (Bands.readAt_whole _ _ x3 _ hz2 _) _
  · have hlo : 128 ≤ r.val := by omega
    have hhi : r.val < 128 + 128 := by omega
    refine (Bands.canon_skip 896 _ _ _ r d (by omega)).trans ?_
    refine (Bands.canon_skip 768 _ _ _ r d (by omega)).trans ?_
    refine (Bands.canon_skip 640 _ _ _ r d (by omega)).trans ?_
    refine (Bands.canon_skip 512 _ _ _ r d (by omega)).trans ?_
    refine (Bands.canon_skip 384 _ _ _ r d (by omega)).trans ?_
    refine (Bands.canon_skip 256 _ _ _ r d (by omega)).trans ?_
    refine (Bands.canon_hit 128 _ _ _ r d hlo hhi).trans ?_
    refine (Pay.pay17_apply _ _ _ _ d).trans ?_
    refine congrArg₂ (· + ·) ?_ (Finset.sum_congr rfl fun j _ => congrArg₂ (· * ·) ?_ ?_)
    · refine (Bands.readCov_band _ _ 128 _ r d hlo hhi).trans ?_
      refine (Bands.canon_skip 0 _ _ _ r d (by omega)).trans ?_
      refine (Bands.canon_skip 896 _ _ _ r d (by omega)).trans ?_
      refine (Bands.canon_skip 768 _ _ _ r d (by omega)).trans ?_
      refine (Bands.canon_skip 640 _ _ _ r d (by omega)).trans ?_
      refine (Bands.canon_skip 512 _ _ _ r d (by omega)).trans ?_
      refine (Bands.canon_skip 384 _ _ _ r d (by omega)).trans ?_
      refine (Bands.canon_skip 256 _ _ _ r d (by omega)).trans ?_
      refine (Bands.canon_hit 128 _ _ _ r d hlo hhi).trans ?_
      refine (Pay.pay6_apply _ _ _ _ d).trans ?_
      refine congrArg₂ (· + ·) ?_ (Finset.sum_congr rfl fun j _ => congrArg₂ (· * ·) ?_ ?_)
      · refine (Bands.readCov_band _ _ 128 _ r d hlo hhi).trans ?_
        refine (Bands.canon_skip 0 _ _ _ r d (by omega)).trans ?_
        refine (congrFun (View.canon_cons_unit_zero hz2 _ _ _) _).trans ?_
        refine (Pay.pay3_apply _ _ _ r d).trans ?_
        refine congrArg₂ (· + ·) (Finset.sum_congr rfl fun p _ => congrArg₂ (· * ·) ?_ ?_) ?_
        · exact congrFun (Bands.readAt_whole _ _ x2 _ hz2 _) _
        · exact congrFun (Bands.readAt_whole _ _ x4 _ hz2 _) _
        · exact congrFun (Bands.readAt_whole _ _ x5 _ hz2 _) _
      · exact (Bands.readAt_tslab _ _ x6 1 (by omega) _ j _).trans (congrArg x6 (congrArg₂ (fun (a : Fin 8) (b : Fin 128) => ix3 a j b) (Fin.ext (by show 1 = r.val / 128; omega)) (Fin.ext (by show r.val - 128 = r.val % 128; omega))))
      · exact congrFun (Bands.readAt_whole _ _ x7 _ hz2 _) _
    · exact (Bands.readAt_slab _ _ x1 1 (by omega) _ j _).trans (congrArg x1 (congrArg₂ (ix3 j) (Fin.ext (by show 1 = r.val / 128; omega)) (Fin.ext (by show r.val - 128 = r.val % 128; omega))))
    · exact congrFun (Bands.readAt_whole _ _ x3 _ hz2 _) _
  · have hlo : 256 ≤ r.val := by omega
    have hhi : r.val < 256 + 128 := by omega
    refine (Bands.canon_skip 896 _ _ _ r d (by omega)).trans ?_
    refine (Bands.canon_skip 768 _ _ _ r d (by omega)).trans ?_
    refine (Bands.canon_skip 640 _ _ _ r d (by omega)).trans ?_
    refine (Bands.canon_skip 512 _ _ _ r d (by omega)).trans ?_
    refine (Bands.canon_skip 384 _ _ _ r d (by omega)).trans ?_
    refine (Bands.canon_hit 256 _ _ _ r d hlo hhi).trans ?_
    refine (Pay.pay18_apply _ _ _ _ d).trans ?_
    refine congrArg₂ (· + ·) ?_ (Finset.sum_congr rfl fun j _ => congrArg₂ (· * ·) ?_ ?_)
    · refine (Bands.readCov_band _ _ 256 _ r d hlo hhi).trans ?_
      refine (Bands.canon_skip 128 _ _ _ r d (by omega)).trans ?_
      refine (Bands.canon_skip 0 _ _ _ r d (by omega)).trans ?_
      refine (Bands.canon_skip 896 _ _ _ r d (by omega)).trans ?_
      refine (Bands.canon_skip 768 _ _ _ r d (by omega)).trans ?_
      refine (Bands.canon_skip 640 _ _ _ r d (by omega)).trans ?_
      refine (Bands.canon_skip 512 _ _ _ r d (by omega)).trans ?_
      refine (Bands.canon_skip 384 _ _ _ r d (by omega)).trans ?_
      refine (Bands.canon_hit 256 _ _ _ r d hlo hhi).trans ?_
      refine (Pay.pay7_apply _ _ _ _ d).trans ?_
      refine congrArg₂ (· + ·) ?_ (Finset.sum_congr rfl fun j _ => congrArg₂ (· * ·) ?_ ?_)
      · refine (Bands.readCov_band _ _ 256 _ r d hlo hhi).trans ?_
        refine (Bands.canon_skip 128 _ _ _ r d (by omega)).trans ?_
        refine (Bands.canon_skip 0 _ _ _ r d (by omega)).trans ?_
        refine (congrFun (View.canon_cons_unit_zero hz2 _ _ _) _).trans ?_
        refine (Pay.pay3_apply _ _ _ r d).trans ?_
        refine congrArg₂ (· + ·) (Finset.sum_congr rfl fun p _ => congrArg₂ (· * ·) ?_ ?_) ?_
        · exact congrFun (Bands.readAt_whole _ _ x2 _ hz2 _) _
        · exact congrFun (Bands.readAt_whole _ _ x4 _ hz2 _) _
        · exact congrFun (Bands.readAt_whole _ _ x5 _ hz2 _) _
      · exact (Bands.readAt_tslab _ _ x6 2 (by omega) _ j _).trans (congrArg x6 (congrArg₂ (fun (a : Fin 8) (b : Fin 128) => ix3 a j b) (Fin.ext (by show 2 = r.val / 128; omega)) (Fin.ext (by show r.val - 256 = r.val % 128; omega))))
      · exact (Pay.pay4_apply _ j d).trans (congrFun (Bands.readAt_whole _ _ x7 _ hz2 _) _)
    · exact (Bands.readAt_slab _ _ x1 2 (by omega) _ j _).trans (congrArg x1 (congrArg₂ (ix3 j) (Fin.ext (by show 2 = r.val / 128; omega)) (Fin.ext (by show r.val - 256 = r.val % 128; omega))))
    · exact congrFun (Bands.readAt_whole _ _ x3 _ hz2 _) _
  · have hlo : 384 ≤ r.val := by omega
    have hhi : r.val < 384 + 128 := by omega
    refine (Bands.canon_skip 896 _ _ _ r d (by omega)).trans ?_
    refine (Bands.canon_skip 768 _ _ _ r d (by omega)).trans ?_
    refine (Bands.canon_skip 640 _ _ _ r d (by omega)).trans ?_
    refine (Bands.canon_skip 512 _ _ _ r d (by omega)).trans ?_
    refine (Bands.canon_hit 384 _ _ _ r d hlo hhi).trans ?_
    refine (Pay.pay19_apply _ _ _ _ d).trans ?_
    refine congrArg₂ (· + ·) ?_ (Finset.sum_congr rfl fun j _ => congrArg₂ (· * ·) ?_ ?_)
    · refine (Bands.readCov_band _ _ 384 _ r d hlo hhi).trans ?_
      refine (Bands.canon_skip 256 _ _ _ r d (by omega)).trans ?_
      refine (Bands.canon_skip 128 _ _ _ r d (by omega)).trans ?_
      refine (Bands.canon_skip 0 _ _ _ r d (by omega)).trans ?_
      refine (Bands.canon_skip 896 _ _ _ r d (by omega)).trans ?_
      refine (Bands.canon_skip 768 _ _ _ r d (by omega)).trans ?_
      refine (Bands.canon_skip 640 _ _ _ r d (by omega)).trans ?_
      refine (Bands.canon_skip 512 _ _ _ r d (by omega)).trans ?_
      refine (Bands.canon_hit 384 _ _ _ r d hlo hhi).trans ?_
      refine (Pay.pay8_apply _ _ _ _ d).trans ?_
      refine congrArg₂ (· + ·) ?_ (Finset.sum_congr rfl fun j _ => congrArg₂ (· * ·) ?_ ?_)
      · refine (Bands.readCov_band _ _ 384 _ r d hlo hhi).trans ?_
        refine (Bands.canon_skip 256 _ _ _ r d (by omega)).trans ?_
        refine (Bands.canon_skip 128 _ _ _ r d (by omega)).trans ?_
        refine (Bands.canon_skip 0 _ _ _ r d (by omega)).trans ?_
        refine (congrFun (View.canon_cons_unit_zero hz2 _ _ _) _).trans ?_
        refine (Pay.pay3_apply _ _ _ r d).trans ?_
        refine congrArg₂ (· + ·) (Finset.sum_congr rfl fun p _ => congrArg₂ (· * ·) ?_ ?_) ?_
        · exact congrFun (Bands.readAt_whole _ _ x2 _ hz2 _) _
        · exact congrFun (Bands.readAt_whole _ _ x4 _ hz2 _) _
        · exact congrFun (Bands.readAt_whole _ _ x5 _ hz2 _) _
      · exact (Bands.readAt_tslab _ _ x6 3 (by omega) _ j _).trans (congrArg x6 (congrArg₂ (fun (a : Fin 8) (b : Fin 128) => ix3 a j b) (Fin.ext (by show 3 = r.val / 128; omega)) (Fin.ext (by show r.val - 384 = r.val % 128; omega))))
      · exact (Pay.pay4_apply _ j d).trans (congrFun (Bands.readAt_whole _ _ x7 _ hz2 _) _)
    · exact (Bands.readAt_slab _ _ x1 3 (by omega) _ j _).trans (congrArg x1 (congrArg₂ (ix3 j) (Fin.ext (by show 3 = r.val / 128; omega)) (Fin.ext (by show r.val - 384 = r.val % 128; omega))))
    · exact (Pay.pay15_apply _ j d).trans (congrFun (Bands.readAt_whole _ _ x3 _ hz2 _) _)
  · have hlo : 512 ≤ r.val := by omega
    have hhi : r.val < 512 + 128 := by omega
    refine (Bands.canon_skip 896 _ _ _ r d (by omega)).trans ?_
    refine (Bands.canon_skip 768 _ _ _ r d (by omega)).trans ?_
    refine (Bands.canon_skip 640 _ _ _ r d (by omega)).trans ?_
    refine (Bands.canon_hit 512 _ _ _ r d hlo hhi).trans ?_
    refine (Pay.pay20_apply _ _ _ _ d).trans ?_
    refine congrArg₂ (· + ·) ?_ (Finset.sum_congr rfl fun j _ => congrArg₂ (· * ·) ?_ ?_)
    · refine (Bands.readCov_band _ _ 512 _ r d hlo hhi).trans ?_
      refine (Bands.canon_skip 384 _ _ _ r d (by omega)).trans ?_
      refine (Bands.canon_skip 256 _ _ _ r d (by omega)).trans ?_
      refine (Bands.canon_skip 128 _ _ _ r d (by omega)).trans ?_
      refine (Bands.canon_skip 0 _ _ _ r d (by omega)).trans ?_
      refine (Bands.canon_skip 896 _ _ _ r d (by omega)).trans ?_
      refine (Bands.canon_skip 768 _ _ _ r d (by omega)).trans ?_
      refine (Bands.canon_skip 640 _ _ _ r d (by omega)).trans ?_
      refine (Bands.canon_hit 512 _ _ _ r d hlo hhi).trans ?_
      refine (Pay.pay9_apply _ _ _ _ d).trans ?_
      refine congrArg₂ (· + ·) ?_ (Finset.sum_congr rfl fun j _ => congrArg₂ (· * ·) ?_ ?_)
      · refine (Bands.readCov_band _ _ 512 _ r d hlo hhi).trans ?_
        refine (Bands.canon_skip 384 _ _ _ r d (by omega)).trans ?_
        refine (Bands.canon_skip 256 _ _ _ r d (by omega)).trans ?_
        refine (Bands.canon_skip 128 _ _ _ r d (by omega)).trans ?_
        refine (Bands.canon_skip 0 _ _ _ r d (by omega)).trans ?_
        refine (congrFun (View.canon_cons_unit_zero hz2 _ _ _) _).trans ?_
        refine (Pay.pay3_apply _ _ _ r d).trans ?_
        refine congrArg₂ (· + ·) (Finset.sum_congr rfl fun p _ => congrArg₂ (· * ·) ?_ ?_) ?_
        · exact congrFun (Bands.readAt_whole _ _ x2 _ hz2 _) _
        · exact congrFun (Bands.readAt_whole _ _ x4 _ hz2 _) _
        · exact congrFun (Bands.readAt_whole _ _ x5 _ hz2 _) _
      · exact (Bands.readAt_tslab _ _ x6 4 (by omega) _ j _).trans (congrArg x6 (congrArg₂ (fun (a : Fin 8) (b : Fin 128) => ix3 a j b) (Fin.ext (by show 4 = r.val / 128; omega)) (Fin.ext (by show r.val - 512 = r.val % 128; omega))))
      · exact (Pay.pay4_apply _ j d).trans (congrFun (Bands.readAt_whole _ _ x7 _ hz2 _) _)
    · exact (Bands.readAt_slab _ _ x1 4 (by omega) _ j _).trans (congrArg x1 (congrArg₂ (ix3 j) (Fin.ext (by show 4 = r.val / 128; omega)) (Fin.ext (by show r.val - 512 = r.val % 128; omega))))
    · exact (Pay.pay15_apply _ j d).trans (congrFun (Bands.readAt_whole _ _ x3 _ hz2 _) _)
  · have hlo : 640 ≤ r.val := by omega
    have hhi : r.val < 640 + 128 := by omega
    refine (Bands.canon_skip 896 _ _ _ r d (by omega)).trans ?_
    refine (Bands.canon_skip 768 _ _ _ r d (by omega)).trans ?_
    refine (Bands.canon_hit 640 _ _ _ r d hlo hhi).trans ?_
    refine (Pay.pay21_apply _ _ _ _ d).trans ?_
    refine congrArg₂ (· + ·) ?_ (Finset.sum_congr rfl fun j _ => congrArg₂ (· * ·) ?_ ?_)
    · refine (Bands.readCov_band _ _ 640 _ r d hlo hhi).trans ?_
      refine (Bands.canon_skip 512 _ _ _ r d (by omega)).trans ?_
      refine (Bands.canon_skip 384 _ _ _ r d (by omega)).trans ?_
      refine (Bands.canon_skip 256 _ _ _ r d (by omega)).trans ?_
      refine (Bands.canon_skip 128 _ _ _ r d (by omega)).trans ?_
      refine (Bands.canon_skip 0 _ _ _ r d (by omega)).trans ?_
      refine (Bands.canon_skip 896 _ _ _ r d (by omega)).trans ?_
      refine (Bands.canon_skip 768 _ _ _ r d (by omega)).trans ?_
      refine (Bands.canon_hit 640 _ _ _ r d hlo hhi).trans ?_
      refine (Pay.pay12_apply _ _ _ _ d).trans ?_
      refine congrArg₂ (· + ·) ?_ (Finset.sum_congr rfl fun j _ => congrArg₂ (· * ·) ?_ ?_)
      · refine (congrFun (Pay.pay10_apply _) _).trans ?_
        refine (Bands.readCov_band _ _ 640 _ r d hlo hhi).trans ?_
        refine (Bands.canon_skip 512 _ _ _ r d (by omega)).trans ?_
        refine (Bands.canon_skip 384 _ _ _ r d (by omega)).trans ?_
        refine (Bands.canon_skip 256 _ _ _ r d (by omega)).trans ?_
        refine (Bands.canon_skip 128 _ _ _ r d (by omega)).trans ?_
        refine (Bands.canon_skip 0 _ _ _ r d (by omega)).trans ?_
        refine (congrFun (View.canon_cons_unit_zero hz2 _ _ _) _).trans ?_
        refine (Pay.pay3_apply _ _ _ r d).trans ?_
        refine congrArg₂ (· + ·) (Finset.sum_congr rfl fun p _ => congrArg₂ (· * ·) ?_ ?_) ?_
        · exact congrFun (Bands.readAt_whole _ _ x2 _ hz2 _) _
        · exact congrFun (Bands.readAt_whole _ _ x4 _ hz2 _) _
        · exact congrFun (Bands.readAt_whole _ _ x5 _ hz2 _) _
      · exact ((Pay.pay11_apply _ j _).trans (Bands.readAt_tslab _ _ x6 5 (by omega) _ j _)).trans (congrArg x6 (congrArg₂ (fun (a : Fin 8) (b : Fin 128) => ix3 a j b) (Fin.ext (by show 5 = r.val / 128; omega)) (Fin.ext (by show r.val - 640 = r.val % 128; omega))))
      · exact (Pay.pay4_apply _ j d).trans (congrFun (Bands.readAt_whole _ _ x7 _ hz2 _) _)
    · exact (Bands.readAt_slab _ _ x1 5 (by omega) _ j _).trans (congrArg x1 (congrArg₂ (ix3 j) (Fin.ext (by show 5 = r.val / 128; omega)) (Fin.ext (by show r.val - 640 = r.val % 128; omega))))
    · exact (Pay.pay15_apply _ j d).trans (congrFun (Bands.readAt_whole _ _ x3 _ hz2 _) _)
  · have hlo : 768 ≤ r.val := by omega
    have hhi : r.val < 768 + 128 := by omega
    refine (Bands.canon_skip 896 _ _ _ r d (by omega)).trans ?_
    refine (Bands.canon_hit 768 _ _ _ r d hlo hhi).trans ?_
    refine (Pay.pay1_apply _ _ _ _ d).trans ?_
    refine congrArg₂ (· + ·) ?_ (Finset.sum_congr rfl fun j _ => congrArg₂ (· * ·) ?_ ?_)
    · refine (Bands.readCov_band _ _ 768 _ r d hlo hhi).trans ?_
      refine (Bands.canon_skip 640 _ _ _ r d (by omega)).trans ?_
      refine (Bands.canon_skip 512 _ _ _ r d (by omega)).trans ?_
      refine (Bands.canon_skip 384 _ _ _ r d (by omega)).trans ?_
      refine (Bands.canon_skip 256 _ _ _ r d (by omega)).trans ?_
      refine (Bands.canon_skip 128 _ _ _ r d (by omega)).trans ?_
      refine (Bands.canon_skip 0 _ _ _ r d (by omega)).trans ?_
      refine (Bands.canon_skip 896 _ _ _ r d (by omega)).trans ?_
      refine (Bands.canon_hit 768 _ _ _ r d hlo hhi).trans ?_
      refine (Pay.pay13_apply _ _ _ _ d).trans ?_
      refine congrArg₂ (· + ·) ?_ (Finset.sum_congr rfl fun j _ => congrArg₂ (· * ·) ?_ ?_)
      · refine (Bands.readCov_band _ _ 768 _ r d hlo hhi).trans ?_
        refine (Bands.canon_skip 640 _ _ _ r d (by omega)).trans ?_
        refine (Bands.canon_skip 512 _ _ _ r d (by omega)).trans ?_
        refine (Bands.canon_skip 384 _ _ _ r d (by omega)).trans ?_
        refine (Bands.canon_skip 256 _ _ _ r d (by omega)).trans ?_
        refine (Bands.canon_skip 128 _ _ _ r d (by omega)).trans ?_
        refine (Bands.canon_skip 0 _ _ _ r d (by omega)).trans ?_
        refine (congrFun (View.canon_cons_unit_zero hz2 _ _ _) _).trans ?_
        refine (Pay.pay3_apply _ _ _ r d).trans ?_
        refine congrArg₂ (· + ·) (Finset.sum_congr rfl fun p _ => congrArg₂ (· * ·) ?_ ?_) ?_
        · exact congrFun (Bands.readAt_whole _ _ x2 _ hz2 _) _
        · exact congrFun (Bands.readAt_whole _ _ x4 _ hz2 _) _
        · exact congrFun (Bands.readAt_whole _ _ x5 _ hz2 _) _
      · exact (Bands.readAt_tslab _ _ x6 6 (by omega) _ j _).trans (congrArg x6 (congrArg₂ (fun (a : Fin 8) (b : Fin 128) => ix3 a j b) (Fin.ext (by show 6 = r.val / 128; omega)) (Fin.ext (by show r.val - 768 = r.val % 128; omega))))
      · exact (Pay.pay4_apply _ j d).trans (congrFun (Bands.readAt_whole _ _ x7 _ hz2 _) _)
    · exact ((Pay.pay22_apply _ j _).trans (Bands.readAt_slab _ _ x1 6 (by omega) _ j _)).trans (congrArg x1 (congrArg₂ (ix3 j) (Fin.ext (by show 6 = r.val / 128; omega)) (Fin.ext (by show r.val - 768 = r.val % 128; omega))))
    · exact (Pay.pay15_apply _ j d).trans (congrFun (Bands.readAt_whole _ _ x3 _ hz2 _) _)
  · have hlo : 896 ≤ r.val := by omega
    have hhi : r.val < 896 + 128 := by omega
    refine (Bands.canon_hit 896 _ _ _ r d hlo hhi).trans ?_
    refine (Pay.pay2_apply _ _ _ _ d).trans ?_
    refine congrArg₂ (· + ·) ?_ (Finset.sum_congr rfl fun j _ => congrArg₂ (· * ·) ?_ ?_)
    · refine (Bands.readCov_band _ _ 896 _ r d hlo hhi).trans ?_
      refine (Bands.canon_skip 768 _ _ _ r d (by omega)).trans ?_
      refine (Bands.canon_skip 640 _ _ _ r d (by omega)).trans ?_
      refine (Bands.canon_skip 512 _ _ _ r d (by omega)).trans ?_
      refine (Bands.canon_skip 384 _ _ _ r d (by omega)).trans ?_
      refine (Bands.canon_skip 256 _ _ _ r d (by omega)).trans ?_
      refine (Bands.canon_skip 128 _ _ _ r d (by omega)).trans ?_
      refine (Bands.canon_skip 0 _ _ _ r d (by omega)).trans ?_
      refine (Bands.canon_hit 896 _ _ _ r d hlo hhi).trans ?_
      refine (Pay.pay14_apply _ _ _ _ d).trans ?_
      refine congrArg₂ (· + ·) ?_ (Finset.sum_congr rfl fun j _ => congrArg₂ (· * ·) ?_ ?_)
      · refine (Bands.readCov_band _ _ 896 _ r d hlo hhi).trans ?_
        refine (Bands.canon_skip 768 _ _ _ r d (by omega)).trans ?_
        refine (Bands.canon_skip 640 _ _ _ r d (by omega)).trans ?_
        refine (Bands.canon_skip 512 _ _ _ r d (by omega)).trans ?_
        refine (Bands.canon_skip 384 _ _ _ r d (by omega)).trans ?_
        refine (Bands.canon_skip 256 _ _ _ r d (by omega)).trans ?_
        refine (Bands.canon_skip 128 _ _ _ r d (by omega)).trans ?_
        refine (Bands.canon_skip 0 _ _ _ r d (by omega)).trans ?_
        refine (congrFun (View.canon_cons_unit_zero hz2 _ _ _) _).trans ?_
        refine (Pay.pay3_apply _ _ _ r d).trans ?_
        refine congrArg₂ (· + ·) (Finset.sum_congr rfl fun p _ => congrArg₂ (· * ·) ?_ ?_) ?_
        · exact congrFun (Bands.readAt_whole _ _ x2 _ hz2 _) _
        · exact congrFun (Bands.readAt_whole _ _ x4 _ hz2 _) _
        · exact congrFun (Bands.readAt_whole _ _ x5 _ hz2 _) _
      · exact (Bands.readAt_tslab _ _ x6 7 (by omega) _ j _).trans (congrArg x6 (congrArg₂ (fun (a : Fin 8) (b : Fin 128) => ix3 a j b) (Fin.ext (by show 7 = r.val / 128; omega)) (Fin.ext (by show r.val - 896 = r.val % 128; omega))))
      · exact (Pay.pay4_apply _ j d).trans (congrFun (Bands.readAt_whole _ _ x7 _ hz2 _) _)
    · exact (Bands.readAt_slab _ _ x1 7 (by omega) _ j _).trans (congrArg x1 (congrArg₂ (ix3 j) (Fin.ext (by show 7 = r.val / 128; omega)) (Fin.ext (by show r.val - 896 = r.val % 128; omega))))
    · exact (Pay.pay15_apply _ j d).trans (congrFun (Bands.readAt_whole _ _ x3 _ hz2 _) _)

end Cert.KernelIdeal.Body

end
-- ==== Proof.KiBlocks.lean ====
/-
  Where each block's entries sit in its array, and what the output array holds after the run.

  A block only moves entries. On every axis an entry of the block at grid point t sits in the array at the block index
  times the block's size plus its own coordinate. Six of the eight windows have one block, the whole array, at block
  index zero: an entry of the block is the array's entry at the same index. The two windows along the vocabulary axis
  take 256 rows per grid point: row j of the block at point t is row 256 * t + j of the array; no block of the 196
  points is cut at the array's end (196 * 256 = 50176 <= 50257), so every entry of the staging buffer is a fetched one.
-/
import proofs.«112730_g86148454023849_cont_9to1_m_880_17_alg».proof.Proof.KiBody
import Idealize.ShloMosaic.Lib.Pipeline.Value
import Idealize.ShloMosaic.Lib.ValueIdx
import Idealize.ShloMosaic.Lib.ValueLayout

set_option maxRecDepth 16384

noncomputable section

namespace Cert.KernelIdeal.Blocks

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The block indices, decided once over the grid -/

/-- The two windows along the vocabulary axis are at block index (t, 0, ..) at point t; every other window stays at
    block index zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## The windows whose one block is the whole array -/

theorem iblk1_apply (c : Dev nD) (t : Fin cfg0.N) (s p : Fin 1024) :
    (iblk m c 1 t : S1024x1024.Idx → Elt F .f32) (ix2 s p) = (V m c main_v3 : S1024x1024.Idx → Elt F .f32) (ix2 s p) := by
  obtain ⟨-, -, -, e0, e1, -⟩ := idx_facts t
  show (V m c main_v3 : S1024x1024.Idx → Elt F .f32) (((cfg0.win 1).blk t).view.emb (ix2 s p)) = _
  refine congrArg _ (funext fun a => Fin.ext ?_)
  match a with
  | ⟨0, _⟩ => show win0_1.index t (0 : Fin 2) * 1024 + 1 * s.val = s.val; omega
  | ⟨1, _⟩ => show win0_1.index t (1 : Fin 2) * 1024 + 1 * p.val = p.val; omega

theorem iblk3_apply (c : Dev nD) (t : Fin cfg0.N) (d : Fin 768) (p : Fin 1024) :
    (iblk m c 3 t : S768x1024.Idx → Elt F .f32) (ix2 d p) = (V m c main_arg4 : S768x1024.Idx → Elt F .f32) (ix2 d p) := by
  obtain ⟨-, -, -, -, -, -, -, e0, e1, -⟩ := idx_facts t
  show (V m c main_arg4 : S768x1024.Idx → Elt F .f32) (((cfg0.win 3).blk t).view.emb (ix2 d p)) = _
  refine congrArg _ (funext fun a => Fin.ext ?_)
  match a with
  | ⟨0, _⟩ => show win0_3.index t (0 : Fin 2) * 768 + 1 * d.val = d.val; omega
  | ⟨1, _⟩ => show win0_3.index t (1 : Fin 2) * 1024 + 1 * p.val = p.val; omega

theorem iblk4_apply (c : Dev nD) (t : Fin cfg0.N) (d : Fin 768) :
    (iblk m c 4 t : S1x768.Idx → Elt F .f32) (ix2 (0 : Fin 1) d) = (V m c main_v5 : S1x768.Idx → Elt F .f32) (ix2 (0 : Fin 1) d) := by
  obtain ⟨-, -, -, -, -, -, -, -, -, e0, e1, -⟩ := idx_facts t
  show (V m c main_v5 : S1x768.Idx → Elt F .f32) (((cfg0.win 4).blk t).view.emb (ix2 (0 : Fin 1) d)) = _
  refine congrArg _ (funext fun a => Fin.ext ?_)
  match a with
  | ⟨0, _⟩ => show win0_4.index t (0 : Fin 2) * 1 + 1 * (0 : Fin 1).val = (0 : Fin 1).val; omega
  | ⟨1, _⟩ => show win0_4.index t (1 : Fin 2) * 768 + 1 * d.val = d.val; omega

theorem iblk5_apply (c : Dev nD) (t : Fin cfg0.N) (g : Fin 8) (j : Fin 81) (l : Fin 128) :
    (iblk m c 5 t : S8x81x128.Idx → Elt F .f32) (ix3 g j l) = (V m c main_v7 : S8x81x128.Idx → Elt F .f32) (ix3 g j l) := by
  obtain ⟨-, -, -, -, -, -, -, -, -, -, -, e0, e1, e2, -⟩ := idx_facts t
  show (V m c main_v7 : S8x81x128.Idx → Elt F .f32) (((cfg0.win 5).blk t).view.emb (ix3 g j l)) = _
  refine congrArg _ (funext fun a => Fin.ext ?_)
  match a with
  | ⟨0, _⟩ => show win0_5.index t (0 : Fin 3) * 8 + 1 * g.val = g.val; omega
  | ⟨1, _⟩ => show win0_5.index t (1 : Fin 3) * 81 + 1 * j.val = j.val; omega
  | ⟨2, _⟩ => show win0_5.index t (2 : Fin 3) * 128 + 1 * l.val = l.val; omega

theorem iblk6_apply (c : Dev nD) (t : Fin cfg0.N) (j : Fin 81) (d : Fin 768) :
    (iblk m c 6 t : S81x768.Idx → Elt F .f32) (ix2 j d) = (V m c main_v8 : S81x768.Idx → Elt F .f32) (ix2 j d) := by
  obtain ⟨-, -, -, -, -, -, -, -, -, -, -, -, -, -, e0, e1, -⟩ := idx_facts t
  show (V m c main_v8 : S81x768.Idx → Elt F .f32) (((cfg0.win 6).blk t).view.emb (ix2 j d)) = _
  refine congrArg _ (funext fun a => Fin.ext ?_)
  match a with
  | ⟨0, _⟩ => show win0_6.index t (0 : Fin 2) * 81 + 1 * j.val = j.val; omega
  | ⟨1, _⟩ => show win0_6.index t (1 : Fin 2) * 768 + 1 * d.val = d.val; omega

/-! ## The two windows along the vocabulary axis -/

/-- Row `j` of the block at point `t` is row `256 * t + j` of the array. -/
theorem blk0_apply (c : Dev nD) (t : Fin cfg0.N) (j : Fin 256) (g : Fin 8) (l : Fin 128) :
    (Body.blk0 m c t : S256x8x128.Idx → Elt F .f32) (ix3 j g l)
      = (V m c main_v1 : S50257x8x128.Idx → Elt F .f32)
          (ix3 (⟨256 * t.val + j.val, by
            have ht : t.val < 196 := lt_of_lt_of_eq t.isLt (show cfg0.N = 196 from N_0)
            have := j.isLt; omega⟩ : Fin 50257) g l) := by
  obtain ⟨e0, e1, e2, -⟩ := idx_facts t
  have hm : win0_0.moved (grid0.coords t) (ix3 j g l : S256x8x128.Idx) = true :=
    (win0_0.moved_iff _ _).mpr fun a => by
      have h := ((ix3 j g l : S256x8x128.Idx) a).isLt
      have hc : win0_0.clip (grid0.coords t) a = none := clip0 t a
      unfold Window.xsize; rw [hc]; exact h
  unfold Body.blk0 Window.fill
  rw [dif_pos hm]
  show (V m c main_v1 : S50257x8x128.Idx → Elt F .f32) (((cfg0.win 0).blk t).view.emb _) = _
  refine congrArg _ (funext fun a => Fin.ext ?_)
  match a with
  | ⟨0, _⟩ => show win0_0.index t (0 : Fin 3) * 256 + 1 * j.val = 256 * t.val + j.val; omega
  | ⟨1, _⟩ => show win0_0.index t (1 : Fin 3) * 8 + 1 * g.val = g.val; omega
  | ⟨2, _⟩ => show win0_0.index t (2 : Fin 3) * 128 + 1 * l.val = l.val; omega

theorem blk2_apply (c : Dev nD) (t : Fin cfg0.N) (j : Fin 256) (d : Fin 768) :
    (Body.blk2 m c t : S256x768.Idx → Elt F .f32) (ix2 j d)
      = (V m c main_v2 : S50257x768.Idx → Elt F .f32)
          (ix2 (⟨256 * t.val + j.val, by
            have ht : t.val < 196 := lt_of_lt_of_eq t.isLt (show cfg0.N = 196 from N_0)
            have := j.isLt; omega⟩ : Fin 50257) d) := by
  obtain ⟨-, -, -, -, -, e0, e1, -⟩ := idx_facts t
  have hm : win0_2.moved (grid0.coords t) (ix2 j d : S256x768.Idx) = true :=
    (win0_2.moved_iff _ _).mpr fun a => by
      have h := ((ix2 j d : S256x768.Idx) a).isLt
      have hc : win0_2.clip (grid0.coords t) a = none := clip2 t a
      unfold Window.xsize; rw [hc]; exact h
  unfold Body.blk2 Window.fill
  rw [dif_pos hm]
  show (V m c main_v2 : S50257x768.Idx → Elt F .f32) (((cfg0.win 2).blk t).view.emb _) = _
  refine congrArg _ (funext fun a => Fin.ext ?_)
  match a with
  | ⟨0, _⟩ => show win0_2.index t (0 : Fin 2) * 256 + 1 * j.val = 256 * t.val + j.val; omega
  | ⟨1, _⟩ => show win0_2.index t (1 : Fin 2) * 768 + 1 * d.val = d.val; omega

/-! ## The output array after the run -/

/-- An index of the output array lies in the block of point `t` iff each coordinate lies in the block's range. -/
theorem mem_blk7 (t : Fin cfg0.N) (i : S1024x768.Idx) :
    i ∈ ((cfg0.win 7).blk t).view.set ↔ ∀ a : Fin 2, win0_7.index t a * S1024x768.size a ≤ (i a).val
      ∧ (i a).val < win0_7.index t a * S1024x768.size a + S1024x768.size a := by
  show i ∈ ((View.whole main_v9).slice (win0_7.rect t)).set ↔ _
  rw [View.set_slice_whole, Rect.mem_set_unit]
  exact Iff.rfl

/-- The output window's one block is the whole array and only the last point writes it back: if the body leaves `G`
    in the staging buffer at the last point, the array holds `G` after the run. -/
theorem arrAt7_of (c : Dev nD) (G : S1024x768.Idx → Elt F .f32)
    (hG : ∀ t : Fin cfg0.N, t.val = 195 → (dats m 0 c).after 7 t = G) :
    ((dats m 0 c).arrAt 7 cfg0.N : S1024x768.Idx → Elt F .f32) = G := by
  refine (dats m 0 c).arrAt_eq_of_cover 7 G ?_ ?_
  · intro t hf
    have hN : t.val < 196 := lt_of_lt_of_eq t.isLt (show cfg0.N = 196 from N_0)
    have h195 : t.val = 195 := by have := (flush0_7 t).mp hf; omega
    obtain ⟨-, -, -, -, -, -, -, -, -, -, -, -, -, -, -, -, e0, e1⟩ := idx_facts t
    show (cfg0.win 7).cut (grid0.coords t) ((dats m 0 c).after 7 t) = _
    rw [hG t h195]
    funext y
    show G ((cfg0.win 7).xinj (grid0.coords t) y) = G (((cfg0.win 7).blk t).view.emb y)
    refine congrArg G (funext fun a => Fin.ext ?_)
    match a with
    | ⟨0, _⟩ => show (y 0).val = win0_7.index t (0 : Fin 2) * 1024 + 1 * (y 0).val; omega
    | ⟨1, _⟩ => show (y 1).val = win0_7.index t (1 : Fin 2) * 768 + 1 * (y 1).val; omega
  · intro i
    have hl : (195 : ℕ) < cfg0.N := lt_of_lt_of_eq (by omega : (195 : ℕ) < 196) (show cfg0.N = 196 from N_0).symm
    obtain ⟨-, -, -, -, -, -, -, -, -, -, -, -, -, -, -, -, e0, e1⟩ := idx_facts ⟨195, hl⟩
    refine ⟨⟨195, hl⟩, (flush0_7 _).mpr (by show 195 % 196 = 195; rfl), ?_⟩
    rw [mem_blk7]
    have hi0 : (i 0).val < 1024 := (i 0).isLt
    have hi1 : (i 1).val < 768 := (i 1).isLt
    intro a
    match a with
    | ⟨0, _⟩ =>
      show win0_7.index ⟨195, hl⟩ (0 : Fin 2) * 1024 ≤ (i 0).val ∧ (i 0).val < win0_7.index ⟨195, hl⟩ (0 : Fin 2) * 1024 + 1024
      omega
    | ⟨1, _⟩ =>
      show win0_7.index ⟨195, hl⟩ (1 : Fin 2) * 768 ≤ (i 1).val ∧ (i 1).val < win0_7.index ⟨195, hl⟩ (1 : Fin 2) * 768 + 768
      omega

/-- The last grid point is a point of the grid. -/
theorem last_lt : (195 : ℕ) < cfg0.N := lt_of_lt_of_eq (by omega : (195 : ℕ) < 196) (show cfg0.N = 196 from N_0).symm

/-- After the run the output array holds what the body left in the staging buffer at the last point. -/
theorem arrAt7 (c : Dev nD) :
    ((dats m 0 c).arrAt 7 cfg0.N : S1024x768.Idx → Elt F .f32) = outsAt m c 195 last_lt :=
  arrAt7_of m c _ fun t ht => by
    rw [after7]
    obtain ⟨tv, htl⟩ := t
    dsimp only at ht
    subst ht
    rfl

/-! ## The result after the host reshape that follows the region -/

/-- The lines after the region are one reshape [1024, 768] -> [1, 1024, 768] of the output array: if the array holds
    `G` after the run, the result at (0, s, d) is `G` at (s, d). -/
theorem result_apply_of (c : Dev nD) (G : S1024x768.Idx → Elt F .f32)
    (hG : ((dats m 0 c).arrAt 7 cfg0.N : S1024x768.Idx → Elt F .f32) = G) (s : Fin 1024) (d : Fin 768) :
    (Pipeline.afterTail₀ cfgs (dats m) 0 (V0 m) [hostOps1] c main_v10 : S1x1024x768.Idx → Elt F .f32) (ix3 (0 : Fin 1) s d)
      = G (ix2 s d) := by
  have e : (Pipeline.afterTail₀ cfgs (dats m) 0 (V0 m) [hostOps1] c main_v10 : S1x1024x768.Idx → Elt F .f32)
      = shapeCast S1x1024x768 G shapeCasts_S1024x768_S1x1024x768 := by
    unfold Pipeline.afterTail₀
    show StableHlo.after hostOps1 _ (Proc.devRef .tc main_v10) = _
    after_results
    have h7 := (Pipeline.withArrays_arr spec0 launch0.win.arr_inj c (V0 m c) (fun w => (dats m 0 c).arrAt w cfg0.N) 7).trans hG
    rw [← h7]
    rfl
  rw [e]
  exact shapeCast_ab_1ab_apply G shapeCasts_S1024x768_S1x1024x768 0 s d

/-- The result at (0, s, d) is what the body left in the output's staging buffer at the last point, at (s, d). -/
theorem result_apply (c : Dev nD) (s : Fin 1024) (d : Fin 768) :
    (Pipeline.afterTail₀ cfgs (dats m) 0 (V0 m) [hostOps1] c main_v10 : S1x1024x768.Idx → Elt F .f32) (ix3 (0 : Fin 1) s d)
      = outsAt m c 195 last_lt (ix2 s d) :=
  result_apply_of m c _ (arrAt7 m c) s d

end Cert.KernelIdeal.Blocks

end
-- ==== Proof.HostPre.lean ====
/- The host operations before the kernel's region, read at an index.

   Before its one region the program rearranges its arguments: it transposes the activations A : [1, 1024, 50257] to
   [50257, 1, 1024] and splits the row axis as 1024 = 8 * 128; it transposes the weights W : [768, 50257]; it drops the
   unit axis of P : [1, 1024, 1024]; it adds the two bias vectors and gives the sum a unit leading axis; and it cuts the
   last 81 = 50257 - 50176 vocabulary rows out of the two rearranged arrays. None of these does arithmetic except the one
   addition: each result element is ONE element of an argument (or the sum of two). This module names that element, for
   every float instance. -/
import proofs.«112730_g86148454023849_cont_9to1_m_880_17_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HostPre

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen

/-! ## Each layout operation at an index, over any element type -/

section Layout
variable {α : Type}

/-- The activations transposed by [2, 0, 1]: element (v, z, s) of the result is element (z, s, v) of the operand. -/
theorem transpose_201_apply (x : S1x1024x50257.Idx → α) (h : S1x1024x50257.Transposes [2, 0, 1] S50257x1x1024)
    (v : Fin 50257) (z : Fin 1) (s : Fin 1024) :
    transpose S50257x1x1024 [2, 0, 1] x h (ix3 v z s) = x (ix3 z s v) :=
  transpose_apply _ x h _ _ fun b => match b with | ⟨0, _⟩ => rfl | ⟨1, _⟩ => rfl | ⟨2, _⟩ => rfl

/-- The row axis split as 1024 = 8 * 128: element (v, g, l) of the result is element (v, 0, 128 g + l) of the operand
    (the same row-major position: (8 v + g) * 128 + l = (v + 0) * 1024 + (128 g + l)). -/
theorem shapeCast_rows_apply (x : S50257x1x1024.Idx → α) (h : S50257x1x1024.ShapeCasts S50257x8x128)
    (v : Fin 50257) (g : Fin 8) (l : Fin 128) :
    shapeCast S50257x8x128 x h (ix3 v g l)
      = x (ix3 v (0 : Fin 1) (⟨128 * g.val + l.val, by have := g.isLt; have := l.isLt; omega⟩ : Fin 1024)) :=
  shapeCast_apply x h _ _ (by
    rw [Shape.rowMajor_val_three, Shape.rowMajor_val_three]
    show (v.val * 1 + 0) * 1024 + (128 * g.val + l.val) = (v.val * 8 + g.val) * 128 + l.val
    omega)

/-- The last 81 vocabulary rows of the split activations: element (j, g, l) of the slice is element
    (50176 + j, g, l) of the operand. -/
theorem slice_rows3_apply (x : S50257x8x128.Idx → α) (h : S50257x8x128.Slices ![50176, 0, 0] S81x8x128)
    (j : Fin 81) (g : Fin 8) (l : Fin 128) :
    extractStridedSlice S81x8x128 ![50176, 0, 0] x h (ix3 j g l)
      = x (ix3 (⟨50176 + j.val, by have := j.isLt; omega⟩ : Fin 50257) g l) :=
  extractStridedSlice_apply _ x h _ _ fun a => match a with
    | ⟨0, _⟩ => rfl
    | ⟨1, _⟩ => (Nat.zero_add _).symm
    | ⟨2, _⟩ => (Nat.zero_add _).symm

/-- The slice's first two axes swapped: element (g, j, l) of the result is element (j, g, l) of the operand. -/
theorem transpose_102_apply (x : S81x8x128.Idx → α) (h : S81x8x128.Transposes [1, 0, 2] S8x81x128)
    (g : Fin 8) (j : Fin 81) (l : Fin 128) :
    transpose S8x81x128 [1, 0, 2] x h (ix3 g j l) = x (ix3 j g l) :=
  transpose_apply _ x h _ _ fun b => match b with | ⟨0, _⟩ => rfl | ⟨1, _⟩ => rfl | ⟨2, _⟩ => rfl

end Layout

/-! ## The buffers the region finds, at an index -/

variable {F : FTy → Type} [FloatOps F]
variable (m : (ℓ : Loc nD τ sig) → Buf (Elt F) ℓ)

/-- The split activations: element (v, g, l) is A[0, 128 g + l, v]. -/
theorem V_v1_apply (c : Dev nD) (v : Fin 50257) (g : Fin 8) (l : Fin 128) :
    (V m c main_v1 : S50257x8x128.Idx → Elt F .f32) (ix3 v g l)
      = (m ((c : Thread nD τ).loc main_arg0) : S1x1024x50257.Idx → Elt F .f32)
          (ix3 (0 : Fin 1) (⟨128 * g.val + l.val, by have := g.isLt; have := l.isLt; omega⟩ : Fin 1024) v) := by
  have e : (V m c main_v1 : S50257x8x128.Idx → Elt F .f32)
      = shapeCast S50257x8x128
          (transpose S50257x1x1024 [2, 0, 1] (m ((c : Thread nD τ).loc main_arg0) : S1x1024x50257.Idx → Elt F .f32)
            transposes_S1x1024x50257_S50257x1x1024_2_0_1)
          shapeCasts_S50257x1x1024_S50257x8x128 := by
    show StableHlo.after hostOps0 (fun b => m (c, b)) (Proc.devRef .tc main_v1) = _
    after_results <;> rfl
  rw [e, shapeCast_rows_apply, transpose_201_apply]

/-- The transposed weights: element (v, d) is W[d, v]. -/
theorem V_v2_apply (c : Dev nD) (v : Fin 50257) (d : Fin 768) :
    (V m c main_v2 : S50257x768.Idx → Elt F .f32) (ix2 v d)
      = (m ((c : Thread nD τ).loc main_arg2) : S768x50257.Idx → Elt F .f32) (ix2 d v) := by
  have e : (V m c main_v2 : S50257x768.Idx → Elt F .f32)
      = transpose S50257x768 [1, 0] (m ((c : Thread nD τ).loc main_arg2) : S768x50257.Idx → Elt F .f32)
          transposes_S768x50257_S50257x768_1_0 := by
    show StableHlo.after hostOps0 (fun b => m (c, b)) (Proc.devRef .tc main_v2) = _
    after_results <;> rfl
  rw [e, transpose_ix2_apply]

/-- The second operand without its unit axis: element (s, p) is P[0, s, p]. -/
theorem V_v3_apply (c : Dev nD) (s p : Fin 1024) :
    (V m c main_v3 : S1024x1024.Idx → Elt F .f32) (ix2 s p)
      = (m ((c : Thread nD τ).loc main_arg1) : S1x1024x1024.Idx → Elt F .f32) (ix3 (0 : Fin 1) s p) := by
  have e : (V m c main_v3 : S1024x1024.Idx → Elt F .f32)
      = shapeCast S1024x1024 (m ((c : Thread nD τ).loc main_arg1) : S1x1024x1024.Idx → Elt F .f32)
          shapeCasts_S1x1024x1024_S1024x1024 := by
    show StableHlo.after hostOps0 (fun b => m (c, b)) (Proc.devRef .tc main_v3) = _
    after_results <;> rfl
  rw [e, shapeCast_1ab_ab_apply]

/-- The two biases added, as a row: element (0, d) is b1[d] + b2[d]. -/
theorem V_v5_apply (c : Dev nD) (d : Fin 768) :
    (V m c main_v5 : S1x768.Idx → Elt F .f32) (ix2 (0 : Fin 1) d)
      = (FloatOps.addf
          ((m ((c : Thread nD τ).loc main_arg3) : S768.Idx → Elt F .f32) (ix1 d) : F .f32)
          ((m ((c : Thread nD τ).loc main_arg5) : S768.Idx → Elt F .f32) (ix1 d) : F .f32) : F .f32) := by
  have e : (V m c main_v5 : S1x768.Idx → Elt F .f32)
      = shapeCast S1x768
          (addf (F := F) (s := S768) (φ := .f32) (m ((c : Thread nD τ).loc main_arg3) : S768.Idx → Elt F .f32)
            (m ((c : Thread nD τ).loc main_arg5) : S768.Idx → Elt F .f32))
          shapeCasts_S768_S1x768 := by
    show StableHlo.after hostOps0 (fun b => m (c, b)) (Proc.devRef .tc main_v5) = _
    after_results <;> rfl
  rw [e, shapeCast_a_1a_apply]
  rfl

/-- The last 81 vocabulary rows of the split activations, row groups outermost: element (g, j, l) is
    A[0, 128 g + l, 50176 + j]. -/
theorem V_v7_apply (c : Dev nD) (g : Fin 8) (j : Fin 81) (l : Fin 128) :
    (V m c main_v7 : S8x81x128.Idx → Elt F .f32) (ix3 g j l)
      = (m ((c : Thread nD τ).loc main_arg0) : S1x1024x50257.Idx → Elt F .f32)
          (ix3 (0 : Fin 1) (⟨128 * g.val + l.val, by have := g.isLt; have := l.isLt; omega⟩ : Fin 1024)
            (⟨50176 + j.val, by have := j.isLt; omega⟩ : Fin 50257)) := by
  have e : (V m c main_v7 : S8x81x128.Idx → Elt F .f32)
      = transpose S8x81x128 [1, 0, 2]
          (extractStridedSlice S81x8x128 ![50176, 0, 0]
            (shapeCast S50257x8x128
              (transpose S50257x1x1024 [2, 0, 1] (m ((c : Thread nD τ).loc main_arg0) : S1x1024x50257.Idx → Elt F .f32)
                transposes_S1x1024x50257_S50257x1x1024_2_0_1)
              shapeCasts_S50257x1x1024_S50257x8x128)
            slices_S50257x8x128_S81x8x128_50176_0_0)
          transposes_S81x8x128_S8x81x128_1_0_2 := by
    show StableHlo.after hostOps0 (fun b => m (c, b)) (Proc.devRef .tc main_v7) = _
    after_results <;> rfl
  rw [e, transpose_102_apply, slice_rows3_apply, shapeCast_rows_apply, transpose_201_apply]

/-- The last 81 vocabulary rows of the transposed weights: element (j, d) is W[d, 50176 + j]. -/
theorem V_v8_apply (c : Dev nD) (j : Fin 81) (d : Fin 768) :
    (V m c main_v8 : S81x768.Idx → Elt F .f32) (ix2 j d)
      = (m ((c : Thread nD τ).loc main_arg2) : S768x50257.Idx → Elt F .f32)
          (ix2 d (⟨50176 + j.val, by have := j.isLt; omega⟩ : Fin 50257)) := by
  have e : (V m c main_v8 : S81x768.Idx → Elt F .f32)
      = extractStridedSlice S81x768 ![50176, 0]
          (transpose S50257x768 [1, 0] (m ((c : Thread nD τ).loc main_arg2) : S768x50257.Idx → Elt F .f32)
            transposes_S768x50257_S50257x768_1_0)
          slices_S50257x768_S81x768_50176_0 := by
    show StableHlo.after hostOps0 (fun b => m (c, b)) (Proc.devRef .tc main_v8) = _
    after_results <;> rfl
  rw [e, slice2_axis0_eq, transpose_ix2_apply]

end Cert.KernelIdeal.HostPre

end
-- ==== Proof.Spec.lean ====
/-
  The specification both programs meet, entry by entry, over the extended reals.

  With A the token activations [1, 1024, 50257], P the positional activations [1, 1024, 1024], W the token weights
  [768, 50257], Wp the positional weights [768, 1024] and b1, b2 the two bias vectors [768], the result's entry
  (0, s, d) is
      (sum_v A(0,s,v) * W(d,v) + b1(d)) + (sum_p P(0,s,p) * Wp(d,p) + b2(d)).
  The kernel reaches the same number in another grouping: it starts from the positional product plus the summed
  biases, adds the ragged tail of the vocabulary axis (its last 81 entries), and then adds one block of 256
  vocabulary entries per grid point, 196 blocks in all (196 * 256 + 81 = 50257).
-/
import Idealize.ShloMosaic.PureOps.Ideal
import Idealize.ShloMosaic.Lib.ValueIdx

noncomputable section

namespace Cert.Spec

open Idealize.ShloMosaic Idealize.ShloMosaic.ValueIdx

abbrev SA : Shape := ⟨3, ![1, 1024, 50257]⟩
abbrev SP : Shape := ⟨3, ![1, 1024, 1024]⟩
abbrev SW : Shape := ⟨2, ![768, 50257]⟩
abbrev Sb : Shape := ⟨1, ![768]⟩
abbrev SWp : Shape := ⟨2, ![768, 1024]⟩
abbrev SR : Shape := ⟨3, ![1, 1024, 768]⟩

/-- Position `256 * k + j` of the vocabulary axis: entry `j` of its `k`-th full block. -/
def vmain (k : Fin 196) (j : Fin 256) : Fin 50257 := ⟨256 * k.val + j.val, by have := k.isLt; have := j.isLt; omega⟩
/-- Position `50176 + j` of the vocabulary axis: entry `j` of its ragged tail. -/
def vtail (j : Fin 81) : Fin 50257 := ⟨50176 + j.val, by have := j.isLt; omega⟩

variable (A : SA.Idx → EReal) (P : SP.Idx → EReal) (W : SW.Idx → EReal) (b1 : Sb.Idx → EReal) (Wp : SWp.Idx → EReal)
  (b2 : Sb.Idx → EReal)

/-- The reference's entry (0, s, d). -/
def entry (s : Fin 1024) (d : Fin 768) : EReal :=
  (∑ v : Fin 50257, A (ix3 (0 : Fin 1) s v) * W (ix2 d v) + b1 (ix1 d))
    + (∑ p : Fin 1024, P (ix3 (0 : Fin 1) s p) * Wp (ix2 d p) + b2 (ix1 d))

/-- The result array of the specification. -/
def G : SR.Idx → EReal := fun i => entry A P W b1 Wp b2 (i 1) (i 2)

/-- The positional product plus the summed biases: what the kernel's first store holds at (s, d). -/
def base (s : Fin 1024) (d : Fin 768) : EReal :=
  ∑ p : Fin 1024, P (ix3 (0 : Fin 1) s p) * Wp (ix2 d p) + (b1 (ix1 d) + b2 (ix1 d))

/-- The ragged tail's contribution at (s, d). -/
def tail (s : Fin 1024) (d : Fin 768) : EReal :=
  ∑ j : Fin 81, A (ix3 (0 : Fin 1) s (vtail j)) * W (ix2 d (vtail j))

/-- Block `k`'s contribution at (s, d). -/
def blk (k : Fin 196) (s : Fin 1024) (d : Fin 768) : EReal :=
  ∑ j : Fin 256, A (ix3 (0 : Fin 1) s (vmain k j)) * W (ix2 d (vmain k j))

/-- The kernel's running value at (s, d) after grid point `n`, in the kernel's own order of additions. -/
def kacc (s : Fin 1024) (d : Fin 768) : (n : ℕ) → n < 196 → EReal
  | 0, h => (base P b1 Wp b2 s d + tail A W s d) + blk A W ⟨0, h⟩ s d
  | n + 1, h => kacc s d n (Nat.lt_of_succ_lt h) + blk A W ⟨n + 1, h⟩ s d

end Cert.Spec

end
-- ==== Proof.KiAcc.lean ====
/-
  The accumulation, entry by entry: after grid point n the output's staging buffer holds, at (r, d), the
  specification's running value — the positional product plus the summed biases, plus the ragged tail of the
  vocabulary axis, plus its full blocks 0..n — in the kernel's own order of additions.

  The blocks of the windows are read off the arrays the region finds, and those off the program's arguments:
  the activations arrive transposed and regrouped in rows of 128, the token weights transposed, the two biases
  summed, the last 81 vocabulary entries of both sliced off as the tail.
-/
import proofs.«112730_g86148454023849_cont_9to1_m_880_17_alg».proof.Proof.KiOutA
import proofs.«112730_g86148454023849_cont_9to1_m_880_17_alg».proof.Proof.KiBlocks
import proofs.«112730_g86148454023849_cont_9to1_m_880_17_alg».proof.Proof.HostPre
import proofs.«112730_g86148454023849_cont_9to1_m_880_17_alg».proof.Proof.Spec

set_option maxRecDepth 65536

noncomputable section

namespace Cert.KernelIdeal.Body

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The program's six argument arrays on core `c`, as the specification takes them. -/
abbrev argA (c : Dev nD) : Cert.Spec.SA.Idx → EReal := m ((c : Thread nD τ).loc main_arg0)
abbrev argP (c : Dev nD) : Cert.Spec.SP.Idx → EReal := m ((c : Thread nD τ).loc main_arg1)
abbrev argW (c : Dev nD) : Cert.Spec.SW.Idx → EReal := m ((c : Thread nD τ).loc main_arg2)
abbrev argB1 (c : Dev nD) : Cert.Spec.Sb.Idx → EReal := m ((c : Thread nD τ).loc main_arg3)
abbrev argWp (c : Dev nD) : Cert.Spec.SWp.Idx → EReal := m ((c : Thread nD τ).loc main_arg4)
abbrev argB2 (c : Dev nD) : Cert.Spec.Sb.Idx → EReal := m ((c : Thread nD τ).loc main_arg5)

/-- Row r is position r % 128 of band r / 128. -/
theorem row_eq (r : Fin 1024) : (⟨128 * (r.val / 128) + r.val % 128, by have := r.isLt; omega⟩ : Fin 1024) = r :=
  Fin.ext (by show 128 * (r.val / 128) + r.val % 128 = r.val; omega)

/-- One term of a full block's product, in the arguments. -/
theorem main_term (c : Dev nD) (t : Fin cfg0.N) (ht : t.val < 196) (r : Fin 1024) (d : Fin 768) (j : Fin 256) :
    blk0 m c t (ix3 j (⟨r.val / 128, by have := r.isLt; omega⟩ : Fin 8) (⟨r.val % 128, Nat.mod_lt _ (by decide)⟩ : Fin 128)) * blk2 m c t (ix2 j d)
      = argA m c (ix3 (0 : Fin 1) r (Cert.Spec.vmain ⟨t.val, ht⟩ j)) * argW m c (ix2 d (Cert.Spec.vmain ⟨t.val, ht⟩ j)) := by
  refine congrArg₂ (· * ·) ?_ ?_
  · refine (Blocks.blk0_apply m c t j _ _).trans ((HostPre.V_v1_apply m c _ _ _).trans ?_)
    exact congrArg (argA m c) (congrArg₂ (ix3 (0 : Fin 1)) (row_eq r) (Fin.ext rfl))
  · refine (Blocks.blk2_apply m c t j d).trans ((HostPre.V_v2_apply m c _ d).trans ?_)
    exact congrArg (argW m c) (congrArg (ix2 d) (Fin.ext rfl))

/-- The ragged tail's two factors, in the arguments. -/
theorem tail_a (c : Dev nD) (t : Fin cfg0.N) (r : Fin 1024) (j : Fin 81) :
    (iblk m c 5 t : S8x81x128.Idx → EReal) (ix3 (⟨r.val / 128, by have := r.isLt; omega⟩ : Fin 8) j (⟨r.val % 128, Nat.mod_lt _ (by decide)⟩ : Fin 128))
      = argA m c (ix3 (0 : Fin 1) r (Cert.Spec.vtail j)) := by
  refine (Blocks.iblk5_apply m c t _ j _).trans ((HostPre.V_v7_apply m c _ j _).trans ?_)
  exact congrArg (argA m c) (congrArg₂ (ix3 (0 : Fin 1)) (row_eq r) (Fin.ext rfl))
theorem tail_w (c : Dev nD) (t : Fin cfg0.N) (d : Fin 768) (j : Fin 81) :
    (iblk m c 6 t : S81x768.Idx → EReal) (ix2 j d) = argW m c (ix2 d (Cert.Spec.vtail j)) := by
  refine (Blocks.iblk6_apply m c t j d).trans ((HostPre.V_v8_apply m c j d).trans ?_)
  exact congrArg (argW m c) (congrArg (ix2 d) (Fin.ext rfl))

/-- The positional product's two factors, in the arguments. -/
theorem pos_a (c : Dev nD) (t : Fin cfg0.N) (r p : Fin 1024) :
    (iblk m c 1 t : S1024x1024.Idx → EReal) (ix2 r p) = argP m c (ix3 (0 : Fin 1) r p) :=
  (Blocks.iblk1_apply m c t r p).trans (HostPre.V_v3_apply m c r p)
theorem pos_w (c : Dev nD) (t : Fin cfg0.N) (d : Fin 768) (p : Fin 1024) :
    (iblk m c 3 t : S768x1024.Idx → EReal) (ix2 d p) = argWp m c (ix2 d p) :=
  (Blocks.iblk3_apply m c t d p).trans (congrFun (V_main_arg4 m c) _)

/-- The bias row, in the arguments: the two bias vectors summed. -/
theorem bias_term (c : Dev nD) (t : Fin cfg0.N) (d : Fin 768) :
    (iblk m c 4 t : S1x768.Idx → EReal) (ix2 (0 : Fin 1) d) = argB1 m c (ix1 d) + argB2 m c (ix1 d) :=
  (Blocks.iblk4_apply m c t d).trans (HostPre.V_v5_apply m c d)

/-- After grid point `n` the output's buffer holds the specification's running value. -/
theorem outsAt_eq (c : Dev nD) : ∀ (n : ℕ) (hn : n < cfg0.N) (r : Fin 1024) (d : Fin 768),
    outsAt m c n hn (ix2 r d)
      = Cert.Spec.kacc (argA m c) (argP m c) (argW m c) (argB1 m c) (argWp m c) (argB2 m c) r d n (lt_of_lt_of_eq hn N_0)
  | 0, hn, r, d => by
    have e : outsAt m c 0 hn = outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) ((hcond0 ⟨0, hn⟩).mpr (Nat.zero_mod _)) (blk0 m c ⟨0, hn⟩) (iblk m c 1 ⟨0, hn⟩) (blk2 m c ⟨0, hn⟩) (iblk m c 3 ⟨0, hn⟩) (iblk m c 4 ⟨0, hn⟩) (iblk m c 5 ⟨0, hn⟩) (iblk m c 6 ⟨0, hn⟩) := rfl
    rw [e, outA_apply]
    show _ = (Cert.Spec.base _ _ _ _ r d + Cert.Spec.tail _ _ r d) + Cert.Spec.blk _ _ ⟨0, _⟩ r d
    unfold Cert.Spec.base Cert.Spec.tail Cert.Spec.blk
    refine congrArg₂ (· + ·) (congrArg₂ (· + ·) (congrArg₂ (· + ·) (Finset.sum_congr rfl fun p _ => ?_) ?_) (Finset.sum_congr rfl fun j _ => ?_)) (Finset.sum_congr rfl fun j _ => ?_)
    · exact congrArg₂ (· * ·) (pos_a m c _ r p) (pos_w m c _ d p)
    · exact bias_term m c _ d
    · exact congrArg₂ (· * ·) (tail_a m c _ r j) (tail_w m c _ d j)
    · exact main_term m c ⟨0, hn⟩ _ r d j
  | n + 1, hn, r, d => by
    have hN : n + 1 < 196 := lt_of_lt_of_eq hn N_0
    have h0 : ¬(n + 1) % 196 = 0 := by omega
    have e : outsAt m c (n + 1) hn = outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (fun h => h0 ((hcond0 ⟨n + 1, hn⟩).mp h)) (blk0 m c ⟨n + 1, hn⟩) (iblk m c 1 ⟨n + 1, hn⟩) (blk2 m c ⟨n + 1, hn⟩) (iblk m c 3 ⟨n + 1, hn⟩) (iblk m c 4 ⟨n + 1, hn⟩) (iblk m c 5 ⟨n + 1, hn⟩) (iblk m c 6 ⟨n + 1, hn⟩) (outsAt m c n (Nat.lt_of_succ_lt hn)) :=
      (dif_neg h0).trans rfl
    rw [e, outB_apply, outsAt_eq c n (Nat.lt_of_succ_lt hn) r d]
    show _ = Cert.Spec.kacc _ _ _ _ _ _ r d n _ + Cert.Spec.blk _ _ ⟨n + 1, _⟩ r d
    unfold Cert.Spec.blk
    exact congrArg₂ (· + ·) rfl (Finset.sum_congr rfl fun j _ => main_term m c ⟨n + 1, hn⟩ hN r d j)

end Cert.KernelIdeal.Body

end
-- ==== Proof.RefSide.lean ====
/-
  The reference side, and the regrouping of the vocabulary sum.

  Three facts over the extended reals.
  * The reference program's result is the specification's array: at the entry (0, s, d) it is
      (sum_v A(0,s,v) * W(d,v) + b1(d)) + (sum_p P(0,s,p) * Wp(d,p) + b2(d)).
  * A sum over the 50257 positions of the vocabulary axis is the sum over its 196 full blocks of 256 positions plus the
    sum over its ragged tail of 81 positions (196 * 256 + 81 = 50257).
  * The kernel's order of additions (positional product plus both biases, then the tail, then one block after another)
    reaches the specification's entry. Only commutativity and associativity of addition are used, so the statement holds
    at the infinities as well.
-/
import proofs.«112730_g86148454023849_cont_9to1_m_880_17_alg».proof.Proof.Spec
import proofs.«112730_g86148454023849_cont_9to1_m_880_17_alg».proof.Proof.Gen.ReferenceIdeal.Read
import Idealize.ShloMosaic.Lib.ValueIdx
import Idealize.ShloMosaic.PureOps.Ideal.Laws

noncomputable section

namespace Cert.RefSide

open Idealize.ShloMosaic Idealize.ShloMosaic.ValueIdx Cert.Spec Cert.ReferenceIdeal

/-! ### The vocabulary axis in blocks -/

/-- A sum over the vocabulary axis, block by block: 196 blocks of 256 positions and a tail of 81. -/
theorem sum_split {M : Type*} [AddCommMonoid M] (f : Fin 50257 → M) :
    ∑ v : Fin 50257, f v = (∑ k : Fin 196, ∑ j : Fin 256, f (vmain k j)) + ∑ j : Fin 81, f (vtail j) := by
  have hn : 196 * 256 + 81 = 50257 := by norm_num
  have h1 : ∑ v : Fin 50257, f v = ∑ v : Fin (196 * 256 + 81), f (finCongr hn v) :=
    (Equiv.sum_comp (finCongr hn) f).symm
  have hA : ∑ i : Fin (196 * 256), f (finCongr hn (Fin.castAdd 81 i))
      = ∑ k : Fin 196, ∑ j : Fin 256, f (vmain k j) := by
    rw [← Equiv.sum_comp (finProdFinEquiv (m := 196) (n := 256)), Fintype.sum_prod_type]
    refine Finset.sum_congr rfl fun k _ => Finset.sum_congr rfl fun j _ => congrArg f (Fin.ext ?_)
    show j.val + 256 * k.val = 256 * k.val + j.val
    omega
  have hB : ∑ i : Fin 81, f (finCongr hn (Fin.natAdd (196 * 256) i)) = ∑ j : Fin 81, f (vtail j) :=
    Finset.sum_congr rfl fun j _ => congrArg f (Fin.ext rfl)
  rw [h1, Fin.sum_univ_add, hA, hB]

/-! ### The reference is the specification -/

/-- The reference program's result, entry by entry, is the specification's array. -/
theorem ref_eq (A : SA.Idx → EReal) (P : SP.Idx → EReal) (W : SW.Idx → EReal) (b1 : Sb.Idx → EReal)
    (Wp : SWp.Idx → EReal) (b2 : Sb.Idx → EReal) :
    Read.val_main_v8 (F := Ideal) A P W b1 Wp b2 = G A P W b1 Wp b2 := by
  funext i
  obtain ⟨z, s, d, rfl⟩ : ∃ (z : Fin 1) (s : Fin 1024) (d : Fin 768), i = ix3 z s d := ⟨i 0, i 1, i 2, eq_ix3 i⟩
  obtain rfl : z = 0 := Subsingleton.elim _ _
  rw [Read.val_main_v8_apply, Read.val_main_v3_apply, Read.val_main_v7_apply, Read.val_main_v0_apply,
    Read.val_main_v4_apply, Read.val_main_v2_apply, Read.val_main_v1_apply, Read.val_main_v6_apply,
    Read.val_main_v5_apply]
  have hl0 : ∀ k : Fin 50257, Read.lidx_main_v0 (ix3 (0 : Fin 1) s d) k = ix3 (0 : Fin 1) s k := fun k => by
    funext a; match a with | ⟨0, _⟩ => rfl | ⟨1, _⟩ => rfl | ⟨2, _⟩ => rfl
  have hr0 : ∀ k : Fin 50257, Read.ridx_main_v0 (ix3 (0 : Fin 1) s d) k = ix2 d k := fun k => by
    funext a; match a with | ⟨0, _⟩ => rfl | ⟨1, _⟩ => rfl
  have hl4 : ∀ k : Fin 1024, Read.lidx_main_v4 (ix3 (0 : Fin 1) s d) k = ix3 (0 : Fin 1) s k := fun k => by
    funext a; match a with | ⟨0, _⟩ => rfl | ⟨1, _⟩ => rfl | ⟨2, _⟩ => rfl
  have hr4 : ∀ k : Fin 1024, Read.ridx_main_v4 (ix3 (0 : Fin 1) s d) k = ix2 d k := fun k => by
    funext a; match a with | ⟨0, _⟩ => rfl | ⟨1, _⟩ => rfl
  have h1 : Read.idx_main_v1 (Read.idx_main_v2 (ix3 (0 : Fin 1) s d)) = ix1 d := by
    funext a; match a with | ⟨0, _⟩ => rfl
  have h5 : Read.idx_main_v5 (Read.idx_main_v6 (ix3 (0 : Fin 1) s d)) = ix1 d := by
    funext a; match a with | ⟨0, _⟩ => rfl
  simp only [hl0, hr0, hl4, hr4, h1, h5, Ideal.addf_def]
  rfl

/-! ### The kernel's order of additions -/

section
variable (A : SA.Idx → EReal) (P : SP.Idx → EReal) (W : SW.Idx → EReal) (b1 : Sb.Idx → EReal)
  (Wp : SWp.Idx → EReal) (b2 : Sb.Idx → EReal) (s : Fin 1024) (d : Fin 768)

/-- Block `k`'s contribution at (s, d) for any natural `k`; zero past the last block. -/
def blkN (k : ℕ) : EReal := if hk : k < 196 then blk A W ⟨k, hk⟩ s d else 0

/-- After grid point `n` the running value is the starting value plus the blocks 0, ..., n. -/
theorem kacc_range (n : ℕ) (h : n < 196) :
    kacc A P W b1 Wp b2 s d n h
      = (base P b1 Wp b2 s d + tail A W s d) + ∑ k ∈ Finset.range (n + 1), blkN A W s d k := by
  induction n with
  | zero =>
    rw [show (0 + 1 : ℕ) = 1 from rfl, Finset.sum_range_one]
    unfold blkN
    rw [dif_pos h]
    rfl
  | succ n ih =>
    rw [Finset.sum_range_succ, ← add_assoc, ← ih (Nat.lt_of_succ_lt h)]
    unfold blkN
    rw [dif_pos h]
    rfl

/-- The kernel's running value after the last grid point is the specification's entry. -/
theorem kacc_eq : kacc A P W b1 Wp b2 s d 195 (by decide) = entry A P W b1 Wp b2 s d := by
  have h := kacc_range A P W b1 Wp b2 s d 195 (by decide)
  rw [show (195 + 1 : ℕ) = 196 from rfl, Finset.sum_range] at h
  have hb : ∀ k : Fin 196, blkN A W s d k.val = blk A W k s d := fun k => by
    unfold blkN
    rw [dif_pos k.isLt]
  rw [h, Finset.sum_congr rfl fun k _ => hb k]
  unfold base tail blk entry
  rw [sum_split (fun v => A (ix3 (0 : Fin 1) s v) * W (ix2 d v))]
  abel

end

end Cert.RefSide

end
-- ==== Proof.KiValue.lean ====
/-
  The idealized kernel's result. The output array after the run is what the last grid point left in the resident
  staging buffer; the host line after the region only regroups it as [1, 1024, 768]; and the accumulation's value
  after the last point is the specification's entry, by regrouping one sum.
-/
import proofs.«112730_g86148454023849_cont_9to1_m_880_17_alg».proof.Proof.KiAcc
import proofs.«112730_g86148454023849_cont_9to1_m_880_17_alg».proof.Proof.RefSide

set_option maxRecDepth 65536

noncomputable section

namespace Cert.KernelIdeal.Body

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The result buffer after the host line that follows the region is the specification's array. -/
theorem result_eq (c : Dev nD) :
    (Pipeline.afterTail₀ cfgs (dats m) 0 (V0 m) [hostOps1] c main_v10 : S1x1024x768.Idx → EReal)
      = Cert.Spec.G (argA m c) (argP m c) (argW m c) (argB1 m c) (argWp m c) (argB2 m c) := by
  funext i
  obtain ⟨z, s, d, rfl⟩ : ∃ (z : Fin 1) (s : Fin 1024) (d : Fin 768), i = ix3 z s d := ⟨i 0, i 1, i 2, eq_ix3 i⟩
  obtain rfl : z = 0 := Subsingleton.elim _ _
  refine (Blocks.result_apply m c s d).trans ((outsAt_eq m c 195 _ s d).trans ?_)
  exact Cert.RefSide.kacc_eq _ _ _ _ _ _ s d

set_option backward.isDefEq.respectTransparency.types false in
/-- Every weakly fair execution of the idealized kernel's @main terminates with the result array at the
    specification's and the six arguments unchanged. -/
theorem value_run : θ_run defs (onTc (τ := τ) (main (F := Ideal))) ⟨m, fun _ => 0, ρ⟩ (fun r => ∀ c : Dev nD,
      r.2.mem ((c.tc : Thread nD τ).loc main_v10) = Cert.Spec.G (argA m c) (argP m c) (argW m c) (argB1 m c) (argWp m c) (argB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v10 (Pipeline.mem_restRefs_of main_v10 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 3).trans (((dats m 0 c).arrAt_in 3 rfl _).trans ((A_eq m c 3).trans (V_main_arg4 m c))),
      (((h c).2 main_arg5 (Pipeline.mem_restRefs_of main_arg5 (by decide) (by decide))).trans (W_main_arg5 m (dats m) c))⟩)
    (run_main m ρ)

end Cert.KernelIdeal.Body

end
-- ==== Proof.lean ====
/-
  The certificate of a fused GPT-2 embedding kernel against its jnp reference.

  The reference computes out[0,s,d] = (sum_v A[0,s,v] * W[d,v] + b1[d]) + (sum_p P[0,s,p] * Wp[d,p] + b2[d]): a dense
  token projection over a vocabulary of 50257, a dense positional projection over 1024 positions, and their biases.
  The kernel runs a grid of 196 points over the vocabulary axis in blocks of 256 rows (196 * 256 = 50176), keeping
  the [1024, 768] output block resident: at the first point it stores the positional product plus the summed
  biases, adds the ragged tail of 81 vocabulary rows, and adds the first block; at every later point it adds that
  point's block; the block is written back once, after the last point. Over the extended reals the two results are
  the same number, entry by entry, by commutativity and associativity of addition and by cutting the sum over the
  vocabulary axis into its 196 blocks and the tail (50257 = 196 * 256 + 81): no finiteness is needed, and the
  precondition is never opened.

  The three frames: each program's run is stated with its final arrays named, and the frame is that run with the
  result forgotten. The idealization rewrote nothing, so the program's idealization is its own text read over the
  extended reals.
-/
import proofs.«112730_g86148454023849_cont_9to1_m_880_17_alg».proof.Defs
import proofs.«112730_g86148454023849_cont_9to1_m_880_17_alg».proof.Proof.Gen.Kernel
import proofs.«112730_g86148454023849_cont_9to1_m_880_17_alg».proof.Proof.Gen.KernelIdeal
import proofs.«112730_g86148454023849_cont_9to1_m_880_17_alg».proof.Proof.Gen.ReferenceIdeal
import proofs.«112730_g86148454023849_cont_9to1_m_880_17_alg».proof.Proof.Gen.Pre_finite_inputs
import proofs.«112730_g86148454023849_cont_9to1_m_880_17_alg».proof.Proof.Gen.ReferenceIdeal.Run
import proofs.«112730_g86148454023849_cont_9to1_m_880_17_alg».proof.Proof.Gen.ReferenceIdeal.Read
import proofs.«112730_g86148454023849_cont_9to1_m_880_17_alg».proof.Proof.KBody
import proofs.«112730_g86148454023849_cont_9to1_m_880_17_alg».proof.Proof.KiValue
import proofs.«112730_g86148454023849_cont_9to1_m_880_17_alg».proof.Proof.RefSide
import Idealize.ShloMosaic.Adequacy
import Idealize.ShloMosaic.Init

noncomputable section

namespace Cert.Proof

open Idealize.ShloMosaic Idealize.SL.Sem

/-- The kernel as printed runs to the end, faults nowhere, and leaves its arguments unchanged. -/
theorem frame_k [Cert.Kernel.Facts] [Cert.Pre_finite_inputs.Facts] : Cert.frame_Kernel :=
  fun m ρ _ => Cert.Kernel.Body.frame (F := Bits) m ρ

/-- So does its reading over the extended reals. -/
theorem frame_ki [Cert.KernelIdeal.Facts] [Cert.Pre_finite_inputs.Facts] : Cert.frame_KernelIdeal :=
  fun m ρ _ => Cert.KernelIdeal.Body.frame (F := Ideal) m ρ

/-- The reference is a line of host operations: its run, the result forgotten. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both programs end with the specification's array of the arguments they agree on. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Spec.G (Cert.KernelIdeal.Body.argA m c) (Cert.KernelIdeal.Body.argP m c) (Cert.KernelIdeal.Body.argW m c) (Cert.KernelIdeal.Body.argB1 m c) (Cert.KernelIdeal.Body.argWp m c) (Cert.KernelIdeal.Body.argB2 m c), Cert.KernelIdeal.Body.value_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v8_eq _ _ _ _ _ _).trans (Cert.RefSide.ref_eq _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
